-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x64 : Shape := ⟨2, ![800000, 64]⟩
abbrev S192x128 : Shape := ⟨2, ![192, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S800000x64 .f32) (main_arg3 : FVec F S192x128 .f32) (main_arg4 : FVec F S128 .f32) (main_arg5 : FVec F S128x128 .f32) (main_arg6 : FVec F S128 .f32) (main_arg7 : FVec F S128x128 .f32) (main_arg8 : FVec F S128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x128 .f32 := Host.absf main_arg3
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S800000x64 : Shape := ⟨2, ![800000, 64]⟩
abbrev S192x128 : Shape := ⟨2, ![192, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S50000x64 : Shape := ⟨2, ![50000, 64]⟩
abbrev S800000x1 : Shape := ⟨2, ![800000, 1]⟩
abbrev S1x128 : Shape := ⟨2, ![1, 128]⟩
abbrev S2000x128 : Shape := ⟨2, ![2000, 128]⟩
abbrev S2000x64 : Shape := ⟨2, ![2000, 64]⟩
abbrev S2000x192 : Shape := ⟨2, ![2000, 192]⟩
abbrev S2000 : Shape := ⟨1, ![2000]⟩
abbrev S2000x1 : Shape := ⟨2, ![2000, 1]⟩

abbrev nBuf : Space → Nat
  | .hbm => 21
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S192x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S50000x64, .f32⟩
  | .hbm, ⟨14, _⟩ => ⟨S800000x1, .i32⟩
  | .hbm, ⟨15, _⟩ => ⟨S50000x64, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x64, .f32⟩
  | .local _ .vmem, ⟨3, _⟩ => ⟨S2000x64, .f32⟩
  | .local _ .vmem, ⟨4, _⟩ => ⟨S192x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S2000x128, .f32⟩
  | .local _ .vmem, ⟨12, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x800000_S1x800000_1_0 : S2x800000.Slices ![1, 0] S1x800000
  shapeCasts_S1x800000_S800000 : S1x800000.ShapeCasts S800000
  bcast_S_S50000x64 : S_.BroadcastsInDim S50000x64 (![] : Fin 0 → Fin S50000x64.rank)
  bcast_S800000_S800000x1_0 : S800000.BroadcastsInDim S800000x1 (![0] : Fin 1 → Fin S800000x1.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  concatenates_S2000x128_S2000x64_S2000x192_d1 : Shape.Concatenates [S2000x128, S2000x64] S2000x192 1
  inb_S192x128_S192x128_0_0 : ∀ a, (![0, 0] : Fin 2 → Nat) a + S192x128.size a ≤ S192x128.size a
  h_S192x128 : 0 < S192x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  reduces_S2000x128_S2000 : S2000x128.Reduces [1] S2000
  shapeCasts_S2000_S2000x1 : S2000.ShapeCasts S2000x1
  broadcasts_S2000x1_S2000x128 : S2000x1.Broadcasts S2000x128
  scatter_S50000x64_S800000x1_S800000x64_1_0_0_1_wf : ScatterDims.WF S50000x64 S800000x1 S800000x64 [1] [0] [0] 1
  dot_S2000x192_S192x128_S2000x128_1_0_0_1_n_n_wf : DotDims.WF S2000x192 S192x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x128.size a ≤ S192x128.size a
  hwx0_2 : ∀ i : grid0.Coords, EltTy.bits .f32 = 32 ∨ (Rect.block (s := S192x128) S192x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S50000x128.size a
  hwx0_9 : ∀ i : grid0.Coords, EltTy.bits .f32 = 32 ∨ (Rect.block (s := S50000x128) S2000x128.size (cc0_transform_9 i) (hinb0_9 i)).WholeWords (EltTy.packing .f32)

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x192_S192x128_S2000x128_1_0_0_1_n_n : DotDims S2000x192 S192x128 S2000x128 where
  lhsContracting := [1]
  rhsContracting := [0]
  lhsNonContracting := [0]
  rhsNonContracting := [1]
  lhsBatch := []
  rhsBatch := []
  wf := dot_S2000x192_S192x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S192x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x64 : Shape := ⟨2, ![800000, 64]⟩
abbrev S192x128 : Shape := ⟨2, ![192, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S50000x64 : Shape := ⟨2, ![50000, 64]⟩
abbrev S800000x1 : Shape := ⟨2, ![800000, 1]⟩
abbrev S50000x192 : Shape := ⟨2, ![50000, 192]⟩
abbrev S1x128 : Shape := ⟨2, ![1, 128]⟩
abbrev S50000 : Shape := ⟨1, ![50000]⟩
abbrev S50000x1 : Shape := ⟨2, ![50000, 1]⟩

abbrev nBuf : Space → Nat
  | .hbm => 71
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S192x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S50000x64, .f32⟩
  | .hbm, ⟨14, _⟩ => ⟨S800000x1, .i32⟩
  | .hbm, ⟨15, _⟩ => ⟨S50000x64, .f32⟩
  | .hbm, ⟨16, _⟩ => ⟨S50000x192, .f32⟩
  | .hbm, ⟨17, _⟩ => ⟨S50000x128, .f32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S_, .f32⟩
  | .hbm, ⟨22, _⟩ => ⟨S_, .f32⟩
  | .hbm, ⟨23, _⟩ => ⟨S50000x128, .f32⟩
  | .hbm, ⟨24, _⟩ => ⟨S50000x128, .i1⟩
  | .hbm, ⟨25, _⟩ => ⟨S_, .f32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S50000x128, .f32⟩
  | .hbm, ⟨30, _⟩ => ⟨S1x128, .f32⟩
  | .hbm, ⟨31, _⟩ => ⟨S50000x128, .f32⟩
  | .hbm, ⟨32, _⟩ => ⟨S50000x128, .f32⟩
  | .hbm, ⟨33, _⟩ => ⟨S_, .f32⟩
  | .hbm, ⟨34, _⟩ => ⟨S_, .f32⟩
  | .hbm, ⟨35, _⟩ => ⟨S50000x128, .f32⟩
  | .hbm, ⟨36, _⟩ => ⟨S50000x128, .i1⟩
  | .hbm, ⟨37, _⟩ => ⟨S_, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000, .f32⟩
  | .hbm, ⟨44, _⟩ => ⟨S50000x1, .f32⟩
  | .hbm, ⟨45, _⟩ => ⟨S_, .f32⟩
  | .hbm, ⟨46, _⟩ => ⟨S50000x1, .f32⟩
  | .hbm, ⟨47, _⟩ => ⟨S50000x1, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S50000, .f32⟩
  | .hbm, ⟨53, _⟩ => ⟨S50000x1, .f32⟩
  | .hbm, ⟨54, _⟩ => ⟨S_, .f32⟩
  | .hbm, ⟨55, _⟩ => ⟨S50000x1, .f32⟩
  | .hbm, ⟨56, _⟩ => ⟨S50000x1, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x1, .f32⟩
  | .hbm, ⟨61, _⟩ => ⟨S50000x1, .f32⟩
  | .hbm, ⟨62, _⟩ => ⟨S50000x1, .f32⟩
  | .hbm, ⟨63, _⟩ => ⟨S50000x128, .f32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_call1_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v15 : Ref sig .tc := ⟨.hbm, 40, rfl⟩
abbrev main_v16 : Ref sig .tc := ⟨.hbm, 41, rfl⟩
abbrev main_cst_2 : Ref sig .tc := ⟨.hbm, 42, rfl⟩
abbrev main_v17 : Ref sig .tc := ⟨.hbm, 43, rfl⟩
abbrev main_v18 : Ref sig .tc := ⟨.hbm, 44, rfl⟩
abbrev main_cst_3 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_4 : Ref sig .tc := ⟨.hbm, 51, rfl⟩
abbrev main_v24 : Ref sig .tc := ⟨.hbm, 52, rfl⟩
abbrev main_v25 : Ref sig .tc := ⟨.hbm, 53, rfl⟩
abbrev main_cst_5 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_6 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩

abbrev nD : Nat := 1
abbrev τ : Topo := Topo.v7x

variable {F : FTy → Type} [FloatOps F]

class Facts₀ : Prop where
  slices_S2x800000_S1x800000_1_0 : S2x800000.Slices ![1, 0] S1x800000
  shapeCasts_S1x800000_S800000 : S1x800000.ShapeCasts S800000
  bcast_S_S50000x64 : S_.BroadcastsInDim S50000x64 (![] : Fin 0 → Fin S50000x64.rank)
  bcast_S800000_S800000x1_0 : S800000.BroadcastsInDim S800000x1 (![0] : Fin 1 → Fin S800000x1.rank)
  concatenates_S50000x128_S50000x64_S50000x192_d1 : Shape.Concatenates [S50000x128, S50000x64] S50000x192 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  scatter_S50000x64_S800000x1_S800000x64_1_0_0_1_wf : ScatterDims.WF S50000x64 S800000x1 S800000x64 [1] [0] [0] 1
  dot_S50000x192_S192x128_S50000x128_1_0_0_1_n_n_wf : DotDims.WF S50000x192 S192x128 S50000x128 [1] [0] [0] [1] [] []
  dot_S50000x128_S128x128_S50000x128_1_0_0_1_n_n_wf : DotDims.WF S50000x128 S128x128 S50000x128 [1] [0] [0] [1] [] []

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x192_S192x128_S50000x128_1_0_0_1_n_n : DotDims S50000x192 S192x128 S50000x128 where
  lhsContracting := [1]
  rhsContracting := [0]
  lhsNonContracting := [0]
  rhsNonContracting := [1]
  lhsBatch := []
  rhsBatch := []
  wf := dot_S50000x192_S192x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.NodeRow.lean ====
/-
  One node's row through the network, over the extended reals.

  A node's output depends on its own feature row (128 entries) and its own row of aggregated messages (64 entries),
  and on nothing else of the two arrays: the two rows are joined into one row of 192, taken through two dense layers
  each followed by the leaky rectifier  v ↦ v  if v ≥ 0, else 0.2 · v,  through a third dense layer without bias, and
  the resulting row of 128 is normalised: with  μ = (∑ h) / 128  and  σ² = (∑ (h − μ)²) / 128,

      out j = (h j − μ) · (σ² + ε)^(−1/2) · γ j + β j.

  The float constants are kept as the words the programs print (0.2, 128, ε = 1e-5 rounded to f32, +0.0); both
  programs print the same words, so none is ever evaluated. Because every output row is this one function of the
  node's own two rows, computing the array 2000 rows at a time or all at once gives the same array.
-/
import Idealize.ShloMosaic.Lib.ValueIdx
import Idealize.ShloMosaic.PureOps.Ideal

noncomputable section

open scoped BigOperators

namespace Cert.NodeNet

open Idealize.ShloMosaic Idealize.ShloMosaic.ValueIdx

/-- The extended reals the four printed f32 words denote: +0.0, the slope 0.2, the row width 128.0, and ε. -/
abbrev zeroW : Ideal .f32 := Ideal.ofBits .f32 0x00000000#32
abbrev slopeW : Ideal .f32 := Ideal.ofBits .f32 0x3E4CCCCD#32
abbrev widthW : Ideal .f32 := Ideal.ofBits .f32 0x43000000#32
abbrev epsW : Ideal .f32 := Ideal.ofBits .f32 0x3727C5AC#32

/-- The leaky rectifier: `v` where `v ≥ 0` (the ordered comparison against +0.0), else `0.2 · v`. -/
def leaky (v : Ideal .f32) : Ideal .f32 :=
  Scalar.select (FloatOps.cmpf (F := Ideal) .oge v zeroW) v (slopeW * v)

/-- Entry `j` of a row times a `K × N` matrix. -/
def dense {K N : Nat} (W : (⟨2, ![K, N]⟩ : Shape).Idx → EReal) (h : Fin K → EReal) (j : Fin N) : EReal :=
  ∑ k : Fin K, h k * W (ix2 k j)

/-- A feature row of 128 followed by a message row of 64. -/
def joined (xr : Fin 128 → EReal) (mr : Fin 64 → EReal) (k : Fin 192) : EReal :=
  if h : k.val < 128 then xr ⟨k.val, h⟩ else mr ⟨k.val - 128, by have := k.isLt; omega⟩

/-- The three dense layers, the first two with bias and rectifier, on a row of 192. -/
def hidden (W1 : (⟨2, ![192, 128]⟩ : Shape).Idx → EReal) (b1 : Fin 128 → EReal)
    (W2 : (⟨2, ![128, 128]⟩ : Shape).Idx → EReal) (b2 : Fin 128 → EReal)
    (W3 : (⟨2, ![128, 128]⟩ : Shape).Idx → EReal) (h0 : Fin 192 → EReal) (j : Fin 128) : EReal :=
  dense W3 (fun e2 => leaky (dense W2 (fun e1 => leaky (dense W1 h0 e1 + b1 e1)) e2 + b2 e2)) j

/-- A row's mean: its sum over 128. -/
def rowMean (h : Fin 128 → EReal) : EReal := Ideal.div (∑ c : Fin 128, h c) widthW

/-- A row's variance about its mean: the sum of the squared deviations over 128. -/
def rowVar (h : Fin 128 → EReal) : EReal :=
  Ideal.div (∑ c : Fin 128, (h c - rowMean h) * (h c - rowMean h)) widthW

/-- The normalised row. -/
def normed (h g be : Fin 128 → EReal) (j : Fin 128) : EReal :=
  (h j - rowMean h) * Ideal.rsqrt (rowVar h + epsW) * g j + be j

/-- One node's output row from its own two rows. -/
def nodeRow (W1 : (⟨2, ![192, 128]⟩ : Shape).Idx → EReal) (b1 : Fin 128 → EReal)
    (W2 : (⟨2, ![128, 128]⟩ : Shape).Idx → EReal) (b2 : Fin 128 → EReal)
    (W3 : (⟨2, ![128, 128]⟩ : Shape).Idx → EReal) (g be : Fin 128 → EReal)
    (xr : Fin 128 → EReal) (mr : Fin 64 → EReal) (j : Fin 128) : EReal :=
  normed (hidden W1 b1 W2 b2 W3 (joined xr mr)) g be j

/-- A bias kept as a one-row matrix, and a bias kept as a vector, as functions of the column. -/
abbrev rowBias (b : (⟨2, ![1, 128]⟩ : Shape).Idx → EReal) : Fin 128 → EReal := fun e => b (ix2 (0 : Fin 1) e)
abbrev vecBias (b : (⟨1, ![128]⟩ : Shape).Idx → EReal) : Fin 128 → EReal := fun e => b (ix1 e)

/-- The whole output: row `i 0` of the result is `nodeRow` of row `i 0` of the features and of the aggregated
    messages, the biases and the normalisation's scale and shift given as functions of the column. -/
def nodeArray (x : (⟨2, ![50000, 128]⟩ : Shape).Idx → EReal) (mg : (⟨2, ![50000, 64]⟩ : Shape).Idx → EReal)
    (W1 : (⟨2, ![192, 128]⟩ : Shape).Idx → EReal) (b1 : Fin 128 → EReal)
    (W2 : (⟨2, ![128, 128]⟩ : Shape).Idx → EReal) (b2 : Fin 128 → EReal)
    (W3 : (⟨2, ![128, 128]⟩ : Shape).Idx → EReal) (g be : Fin 128 → EReal) :
    (⟨2, ![50000, 128]⟩ : Shape).Idx → EReal :=
  fun i => nodeRow W1 b1 W2 b2 W3 g be (fun a => x (ix2 (i 0) a)) (fun a => mg (ix2 (i 0) a)) (i 1)

theorem nodeArray_apply (x : (⟨2, ![50000, 128]⟩ : Shape).Idx → EReal) (mg : (⟨2, ![50000, 64]⟩ : Shape).Idx → EReal)
    (W1 : (⟨2, ![192, 128]⟩ : Shape).Idx → EReal) (b1 : Fin 128 → EReal)
    (W2 : (⟨2, ![128, 128]⟩ : Shape).Idx → EReal) (b2 : Fin 128 → EReal)
    (W3 : (⟨2, ![128, 128]⟩ : Shape).Idx → EReal) (g be : Fin 128 → EReal) (r : Fin 50000) (j : Fin 128) :
    nodeArray x mg W1 b1 W2 b2 W3 g be (ix2 r j)
      = nodeRow W1 b1 W2 b2 W3 g be (fun a => x (ix2 r a)) (fun a => mg (ix2 r a)) j := rfl

end Cert.NodeNet

end
-- ==== Proof.LibPlainMatmul.lean ====
/-
  A plain matrix product read at one entry, over the extended reals.

  For the dimension numbers of an `M × K` by `K × N` product (`DotDims.plain M K N`: the left operand
  contracted on its second axis, the right one on its first, no batch axis) the entry `(p, q)` of the
  product is `∑ k, lhs (p, k) * rhs (k, q)`: for a kernel's matrix-unit product accumulated into the zero
  splat, and for the host's `dot_general`. The contraction index of such a product has one coordinate, and
  the operands' indices at output `(p, q)` and contraction coordinate `k` are `(p, k)` and `(k, q)`.
-/
import Idealize.ShloMosaic.Lib.ValueIdx
import Idealize.ShloMosaic.PureOps.Ideal.Laws

noncomputable section

open scoped BigOperators

namespace Cert.PlainMatmul

open Idealize.ShloMosaic Idealize.ShloMosaic.ValueIdx

variable {M K N : Nat}

/-- The contraction of a plain product runs over one axis … -/
theorem contr_rank : (DotDims.plain M K N).contr.rank = 1 := rfl

/-- … of extent `K`. -/
theorem contr_size : (DotDims.plain M K N).contr.size ⟨0, Nat.one_pos⟩ = K := rfl

/-- The contraction index whose one coordinate is `k`. -/
abbrev kidx (k : Fin K) : (DotDims.plain M K N).contr.Idx :=
  (contrEquiv1 (DotDims.plain M K N) K contr_rank contr_size).symm k

/-- At output `(p, q)` and contraction coordinate `k` the left operand is read at `(p, k)`. -/
theorem lhsIdx_eq (p : Fin M) (q : Fin N) (k : Fin K) :
    (DotDims.plain M K N).lhsIdx (ix2 p q) (kidx k) = ix2 p k := by
  funext a
  refine Fin.ext ?_
  match a with
  | ⟨0, h0⟩ =>
    unfold DotDims.lhsIdx
    rw [dif_neg (show ¬(⟨0, h0⟩ : Fin (⟨2, ![M, K]⟩ : Shape).rank) ∈ (DotDims.plain M K N).lhsBatch from List.not_mem_nil),
      dif_pos (show (⟨0, h0⟩ : Fin (⟨2, ![M, K]⟩ : Shape).rank) ∈ (DotDims.plain M K N).lhsNonContracting from
        List.mem_singleton.mpr rfl)]
    rfl
  | ⟨1, _⟩ =>
    exact ((DotDims.plain M K N).lhsIdx_val_of_single (cl := 1) rfl (ix2 p q) (kidx k)).trans
      (contrEquiv1_symm_val (DotDims.plain M K N) K contr_rank contr_size k)

/-- At output `(p, q)` and contraction coordinate `k` the right operand is read at `(k, q)`. -/
theorem rhsIdx_eq (p : Fin M) (q : Fin N) (k : Fin K) :
    (DotDims.plain M K N).rhsIdx (ix2 p q) (kidx k) = ix2 k q := by
  funext a
  refine Fin.ext ?_
  match a with
  | ⟨0, _⟩ =>
    exact ((DotDims.plain M K N).rhsIdx_val_of_single (cr := 0) rfl (ix2 p q) (kidx k)).trans
      (contrEquiv1_symm_val (DotDims.plain M K N) K contr_rank contr_size k)
  | ⟨1, h1⟩ =>
    unfold DotDims.rhsIdx
    rw [dif_neg (show ¬(⟨1, h1⟩ : Fin (⟨2, ![K, N]⟩ : Shape).rank) ∈ (DotDims.plain M K N).rhsBatch from List.not_mem_nil),
      dif_pos (show (⟨1, h1⟩ : Fin (⟨2, ![K, N]⟩ : Shape).rank) ∈ (DotDims.plain M K N).rhsNonContracting from
        List.mem_singleton.mpr rfl)]
    rfl

/-- The sum over the contraction index of a plain product is the sum over its one coordinate. -/
theorem sum_contr (f : (⟨2, ![M, K]⟩ : Shape).Idx → (⟨2, ![K, N]⟩ : Shape).Idx → EReal) (p : Fin M) (q : Fin N) :
    ∑ κ : (DotDims.plain M K N).contr.Idx, f ((DotDims.plain M K N).lhsIdx (ix2 p q) κ) ((DotDims.plain M K N).rhsIdx (ix2 p q) κ)
      = ∑ k : Fin K, f (ix2 p k) (ix2 k q) := by
  rw [← Equiv.sum_comp (contrEquiv1 (DotDims.plain M K N) K contr_rank contr_size).symm]
  refine Finset.sum_congr rfl fun k _ => ?_
  rw [lhsIdx_eq p q k, rhsIdx_eq p q k]

/-- A KERNEL'S PRODUCT into the zero accumulator, at entry `(p, q)`: the sum over `k` of `lhs (p, k) * rhs (k, q)`,
    whatever the operands' formats (a change of format is the identity on the extended reals). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (DotDims.plain M K N) prec lhs rhs (constant (F := Ideal) ⟨2, ![M, N]⟩ .f32 0x00000000#32) (ix2 p q)
      = ∑ k : Fin K, lhs (ix2 p k) * rhs (ix2 k q) := by
  show FloatOps.matmul (DotDims.plain M K N) prec lhs rhs (constant (F := Ideal) ⟨2, ![M, N]⟩ .f32 0x00000000#32) (ix2 p q) = _
  rw [Ideal.matmul_constant_zero_apply]
  exact sum_contr (fun a b => lhs a * rhs b) p q

/-- THE HOST'S `dot_general` with the same dimension numbers, at entry `(p, q)`: the same sum. -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (DotDims.plain M K N) prec lhs rhs (ix2 p q) = ∑ k : Fin K, lhs (ix2 p k) * rhs (ix2 k q) := by
  show FloatOps.dotGeneral (DotDims.plain M K N) prec .single lhs rhs (ix2 p q) = _
  rw [Ideal.dotGeneral_apply]
  exact sum_contr (fun a b => lhs a * rhs b) p q

end Cert.PlainMatmul

end
-- ==== Proof.LibRowReduce.lean ====
/-
  A matrix reduced along its rows, the result kept as a column: the layout steps and the reductions, read at an index.

  A reduction of an `[a, b]` matrix over its second axis yields a vector of `a` entries.  Kept as a column it is cast to
  `[a, 1]`, and to meet the matrix again it is broadcast back to `[a, b]`: entry `(i, j)` of the broadcast is entry `i` of
  the vector.  The reductions themselves, at the extended reals: a row's maximum is the fold of `max` over the row from
  the starting value, a row's sum is the sum over the row.  The same two readings hold for the last axis of an
  `[n, a, b]` array reduced by a host program, where the starting value is added in front of the sum.
-/
import Idealize.ShloMosaic.Lib.Pipeline.Value
import Idealize.ShloMosaic.Lib.ValueIdx
import Idealize.ShloMosaic.PureOps.Ideal.Laws

noncomputable section

namespace Cert.RowReduce

open Idealize.ShloMosaic Idealize.ShloMosaic.ValueIdx

variable {α : Type}

/-! ## The column of a vector -/

/-- A vector of `a` entries cast to a column `[a, 1]` reads, at `(i, u)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along the rows of an `[a, b]` matrix reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- So a vector kept as a column and broadcast along the rows reads, at `(i, j)`, the vector's entry `i`. -/
theorem broadcastTo_column_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

/-! ## A matrix reduced along its rows -/

/-- Over entry `i` of the reduced vector, the matrix index with `k` on the reduced axis is `(i, k)`. -/
theorem lift_row {a b : ℕ} (h : (⟨2, ![a, b]⟩ : Shape).Reduces [1] ⟨1, ![a]⟩) (i : Fin a) (k : Fin b) :
    h.lift (ix1 i) k = ix2 i k :=
  funext fun c => Fin.ext (by match c with | ⟨0, _⟩ => rfl | ⟨1, _⟩ => rfl)

variable {φ : FTy}

/-- A row's maximum at the extended reals: the fold of `max` over the row's entries from the starting value. -/
theorem multiReduction_maximumf_row {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ X acc h hφ hacc (ix1 i)
      = (Finset.univ : Finset (Fin b)).fold max (Ideal.ofBits φ acc) (fun k => X (ix2 i k)) := by
  have e : (X ∘ h.lift (ix1 i)) = fun k => X (ix2 i k) := funext fun k => congrArg X (lift_row h i k)
  rw [Ideal.multiReduction_maximumf_single, e]
  rfl

/-- A row's sum at the extended reals: the sum over the row's entries. -/
theorem multiReduction_add_row {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ X acc h hφ hacc (ix1 i) = ∑ k : Fin b, X (ix2 i k) := by
  rw [Ideal.multiReduction_add_single]
  exact Finset.sum_congr rfl fun k _ => congrArg X (lift_row h i k)

/-! ## The last axis of a rank-3 array reduced by a host program -/

/-- Over entry `(p, i)` of the reduced array, the source index with `k` on the reduced axis is `(p, i, k)`. -/
theorem lift_last3 {n a b : ℕ} (h : (⟨3, ![n, a, b]⟩ : Shape).Reduces [2] ⟨2, ![n, a]⟩) (p : Fin n) (i : Fin a) (k : Fin b) :
    h.lift (ix2 p i) k = ix3 p i k :=
  funext fun c => Fin.ext (by match c with | ⟨0, _⟩ => rfl | ⟨1, _⟩ => rfl | ⟨2, _⟩ => rfl)

/-- A host maximum over the last axis: the fold of `max` over that axis from the starting value. -/
theorem hostReduce_maximumf_last3 {n a b : ℕ} {u : Shape} (x : (⟨3, ![n, a, b]⟩ : Shape).Idx → Ideal φ) (init : u.Idx → Ideal φ)
    (h' : (⟨3, ![n, a, b]⟩ : Shape).ReducesTo [2] ⟨2, ![n, a]⟩) (h : (⟨3, ![n, a, b]⟩ : Shape).Reduces [2] ⟨2, ![n, a]⟩)
    (hu : 0 < u.numel) (p : Fin n) (i : Fin a) :
    Host.reduce (FloatOps.maximumf (F := Ideal) (φ := φ)) x init h' hu (ix2 p i)
      = (Finset.univ : Finset (Fin b)).fold max (init (Shape.Idx.first hu)) (fun k => x (ix3 p i k)) := by
  have e : (x ∘ h.lift (ix2 p i)) = fun k => x (ix3 p i k) := funext fun k => congrArg x (lift_last3 h p i k)
  rw [Host.reduce_eq_fold_single (FloatOps.maximumf (F := Ideal) (φ := φ)) x init h' h hu, e]
  rfl

/-- A host sum over the last axis: the starting value plus the sum over that axis. -/
theorem hostReduceAdd_last3 {n a b : ℕ} (x : (⟨3, ![n, a, b]⟩ : Shape).Idx → EReal) (init : EReal)
    (h' : (⟨3, ![n, a, b]⟩ : Shape).ReducesTo [2] ⟨2, ![n, a]⟩) (h : (⟨3, ![n, a, b]⟩ : Shape).Reduces [2] ⟨2, ![n, a]⟩)
    (p : Fin n) (i : Fin a) :
    Ideal.hostReduceAdd h' x init (ix2 p i) = init + ∑ k : Fin b, x (ix3 p i k) := by
  rw [Ideal.hostReduceAdd_single h' h]
  exact congrArg (init + ·) (Finset.sum_congr rfl fun k _ => congrArg x (lift_last3 h p i k))

end Cert.RowReduce

end
-- ==== Proof.RowSpellKernel.lean ====
/-
  The kernel's spelling of the row network, read at an entry.

  Over a block of `M` rows the kernel forms each dense layer as a matrix-unit product into a zero accumulator plus a
  one-row bias broadcast down the rows, the rectifier as a select on an ordered compare against a zero splat, and the
  row mean as a lane sum kept as a column and divided by a splat of 128. Read at entry `(p, j)` each of these is
  the row function of Proof/NodeRow.lean applied to ROW `p` of its operand: nothing is re-associated, so no entry
  needs to be finite.
-/
import Idealize.ShloMosaic.Lib.ValueIdx
import Idealize.ShloMosaic.Lib.ValueLayout
import Idealize.ShloMosaic.Lib.Pipeline.Value
import Idealize.ShloMosaic.PureOps.Ideal.Laws
import proofs.«134070_j29137058136337_1_alg».proof.Proof.NodeRow
import proofs.«134070_j29137058136337_1_alg».proof.Proof.LibPlainMatmul
import proofs.«134070_j29137058136337_1_alg».proof.Proof.LibRowReduce

noncomputable section

open scoped BigOperators

namespace Cert.NodeNet

open Idealize.ShloMosaic Idealize.ShloMosaic.ValueIdx

variable {M : Nat}

/-! ## The joined row -/

/-- A block of feature rows and a block of message rows concatenated along the columns: row `p` of the result is
    row `p` of the features followed by row `p` of the messages. -/
theorem concat_row (x : (⟨2, ![M, 128]⟩ : Shape).Idx → EReal) (mg : (⟨2, ![M, 64]⟩ : Shape).Idx → EReal)
    (h : Shape.Concatenates [(⟨2, ![M, 128]⟩ : Shape), ⟨2, ![M, 64]⟩] ⟨2, ![M, 192]⟩ (1 : Fin (⟨2, ![M, 192]⟩ : Shape).rank))
    (p : Fin M) (k : Fin 192) :
    concatenate ⟨2, ![M, 192]⟩ (1 : Fin (⟨2, ![M, 192]⟩ : Shape).rank) [⟨⟨2, ![M, 128]⟩, x⟩, ⟨⟨2, ![M, 64]⟩, mg⟩] h (ix2 p k)
      = joined (fun a => x (ix2 p a)) (fun a => mg (ix2 p a)) k := by
  unfold joined
  by_cases hk : k.val < 128
  · rw [dif_pos hk]
    exact concatenate_pair_apply_left (1 : Fin (⟨2, ![M, 192]⟩ : Shape).rank) x mg h (ix2 p k) rfl (ix2 p ⟨k.val, hk⟩)
      (fun b => by match b with | ⟨0, _⟩ => rfl | ⟨1, _⟩ => rfl)
  · rw [dif_neg hk]
    have hk' : k.val - 128 < 64 := by have := k.isLt; omega
    exact concatenate_pair_apply_right (1 : Fin (⟨2, ![M, 192]⟩ : Shape).rank) x mg h (ix2 p k) rfl rfl (ix2 p ⟨k.val - 128, hk'⟩)
      (fun b hb => by
        match b, hb with
        | ⟨0, _⟩, _ => rfl
        | ⟨1, _⟩, hb => exact absurd rfl hb)
      (by show k.val - 128 + 128 = k.val; omega)

/-! ## The rectifier -/

/-- The kernel's rectifier over a whole block: select on `a ≥ 0` between `a` and `0.2 · a`. -/
def kLeaky {s : Shape} (a : FVec Ideal s .f32) : FVec Ideal s .f32 :=
  select (cmpf .oge a (broadcast s (Scalar.ofBits (F := Ideal) .f32 0x00000000#32))) a
    (mulf (broadcast s (Scalar.ofBits (F := Ideal) .f32 0x3E4CCCCD#32)) a)

theorem kLeaky_apply {s : Shape} (a : FVec Ideal s .f32) (i : s.Idx) : kLeaky a i = leaky (a i) := rfl

/-! ## A dense layer with a one-row bias -/

/-- The kernel's dense layer: the product into a zero accumulator plus the bias row broadcast down the rows. -/
def kDense {K N : Nat} (h : FVec Ideal ⟨2, ![M, K]⟩ .f32) (W : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) :
    FVec Ideal ⟨2, ![M, N]⟩ .f32 :=
  addf (matmul (DotDims.plain M K N) none h W (constant (F := Ideal) ⟨2, ![M, N]⟩ .f32 0x00000000#32))
    (broadcastTo ⟨2, ![M, N]⟩ (shapeCast ⟨2, ![1, N]⟩ b hc) hb)

theorem kDense_apply {K N : Nat} (h : FVec Ideal ⟨2, ![M, K]⟩ .f32) (W : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩)
    (p : Fin M) (j : Fin N) :
    kDense h W b hc hb (ix2 p j) = dense W (fun k => h (ix2 p k)) j + b (ix2 (0 : Fin 1) j) := by
  unfold kDense dense
  rw [addf_apply, PlainMatmul.matmul_zero_apply, broadcastTo_1b_ab_apply, shapeCast_self]

/-! ## The three layers -/

/-- The kernel's three layers over a block of `M` rows. -/
def kHidden (x : FVec Ideal ⟨2, ![M, 128]⟩ .f32) (mg : FVec Ideal ⟨2, ![M, 64]⟩ .f32)
    (W1 : FVec Ideal ⟨2, ![192, 128]⟩ .f32) (b1 : FVec Ideal ⟨2, ![1, 128]⟩ .f32)
    (W2 : FVec Ideal ⟨2, ![128, 128]⟩ .f32) (b2 : FVec Ideal ⟨2, ![1, 128]⟩ .f32)
    (W3 : FVec Ideal ⟨2, ![128, 128]⟩ .f32)
    (hcm : (⟨2, ![M, 64]⟩ : Shape).ShapeCasts ⟨2, ![M, 64]⟩)
    (hcat : Shape.Concatenates [(⟨2, ![M, 128]⟩ : Shape), ⟨2, ![M, 64]⟩] ⟨2, ![M, 192]⟩ (1 : Fin (⟨2, ![M, 192]⟩ : Shape).rank))
    (hc : (⟨2, ![1, 128]⟩ : Shape).ShapeCasts ⟨2, ![1, 128]⟩) (hb : (⟨2, ![1, 128]⟩ : Shape).Broadcasts ⟨2, ![M, 128]⟩) :
    FVec Ideal ⟨2, ![M, 128]⟩ .f32 :=
  matmul (DotDims.plain M 128 128) none
    (kLeaky (kDense
      (kLeaky (kDense
        (concatenate ⟨2, ![M, 192]⟩ (1 : Fin (⟨2, ![M, 192]⟩ : Shape).rank)
          [⟨⟨2, ![M, 128]⟩, x⟩, ⟨⟨2, ![M, 64]⟩, shapeCast ⟨2, ![M, 64]⟩ mg hcm⟩] hcat)
        W1 b1 hc hb))
      W2 b2 hc hb))
    W3 (constant (F := Ideal) ⟨2, ![M, 128]⟩ .f32 0x00000000#32)

/-- Entry `(p, j)` of the kernel's three layers is the row function of row `p` of the two operands. -/
theorem kHidden_apply (x : FVec Ideal ⟨2, ![M, 128]⟩ .f32) (mg : FVec Ideal ⟨2, ![M, 64]⟩ .f32)
    (W1 : FVec Ideal ⟨2, ![192, 128]⟩ .f32) (b1 : FVec Ideal ⟨2, ![1, 128]⟩ .f32)
    (W2 : FVec Ideal ⟨2, ![128, 128]⟩ .f32) (b2 : FVec Ideal ⟨2, ![1, 128]⟩ .f32)
    (W3 : FVec Ideal ⟨2, ![128, 128]⟩ .f32)
    (hcm : (⟨2, ![M, 64]⟩ : Shape).ShapeCasts ⟨2, ![M, 64]⟩)
    (hcat : Shape.Concatenates [(⟨2, ![M, 128]⟩ : Shape), ⟨2, ![M, 64]⟩] ⟨2, ![M, 192]⟩ (1 : Fin (⟨2, ![M, 192]⟩ : Shape).rank))
    (hc : (⟨2, ![1, 128]⟩ : Shape).ShapeCasts ⟨2, ![1, 128]⟩) (hb : (⟨2, ![1, 128]⟩ : Shape).Broadcasts ⟨2, ![M, 128]⟩)
    (p : Fin M) (j : Fin 128) :
    kHidden x mg W1 b1 W2 b2 W3 hcm hcat hc hb (ix2 p j)
      = hidden W1 (rowBias b1) W2 (rowBias b2) W3 (joined (fun a => x (ix2 p a)) (fun a => mg (ix2 p a))) j := by
  unfold kHidden hidden
  rw [PlainMatmul.matmul_zero_apply]
  show _ = ∑ e2 : Fin 128, _ * W3 (ix2 e2 j)
  refine Finset.sum_congr rfl fun e2 _ => congrArg (· * W3 (ix2 e2 j)) ?_
  rw [kLeaky_apply, kDense_apply]
  refine congrArg leaky (congrArg (· + b2 (ix2 (0 : Fin 1) e2)) ?_)
  show _ = ∑ e1 : Fin 128, _ * W2 (ix2 e1 e2)
  refine Finset.sum_congr rfl fun e1 _ => congrArg (· * W2 (ix2 e1 e2)) ?_
  beta_reduce
  rw [kLeaky_apply, kDense_apply]
  refine congrArg leaky (congrArg (· + b1 (ix2 (0 : Fin 1) e1)) ?_)
  show _ = ∑ k : Fin 192, _ * W1 (ix2 k e1)
  refine Finset.sum_congr rfl fun k _ => congrArg (· * W1 (ix2 k e1)) ?_
  beta_reduce
  rw [shapeCast_self]
  exact concat_row x mg hcat p k

/-! ## The row mean and the normalised row -/

/-- A lane sum started from the zero word: the sum of the row. -/
theorem laneSum_apply (H : FVec Ideal ⟨2, ![M, 128]⟩ .f32) (hr : (⟨2, ![M, 128]⟩ : Shape).Reduces [1] ⟨1, ![M]⟩) (p : Fin M) :
    multiReduction .add [1] ⟨1, ![M]⟩ H 0x00000000#32 hr (.inl rfl) rfl (ix1 p) = ∑ c : Fin 128, H (ix2 p c) :=
  RowReduce.multiReduction_add_row H 0x00000000#32 hr (.inl rfl) rfl p

/-- The kernel's mean column: the lane sums kept as a column `[M, 1]`, divided by a splat of 128. -/
def kMeanCol (H : FVec Ideal ⟨2, ![M, 128]⟩ .f32) (hr : (⟨2, ![M, 128]⟩ : Shape).Reduces [1] ⟨1, ![M]⟩)
    (hc : (⟨1, ![M]⟩ : Shape).ShapeCasts ⟨2, ![M, 1]⟩) : FVec Ideal ⟨2, ![M, 1]⟩ .f32 :=
  divf (shapeCast ⟨2, ![M, 1]⟩ (multiReduction .add [1] ⟨1, ![M]⟩ H 0x00000000#32 hr (.inl rfl) rfl) hc)
    (broadcast ⟨2, ![M, 1]⟩ (Scalar.ofBits (F := Ideal) .f32 0x43000000#32))

theorem kMeanCol_apply (H : FVec Ideal ⟨2, ![M, 128]⟩ .f32) (hr : (⟨2, ![M, 128]⟩ : Shape).Reduces [1] ⟨1, ![M]⟩)
    (hc : (⟨1, ![M]⟩ : Shape).ShapeCasts ⟨2, ![M, 1]⟩) (p : Fin M) (u : Fin 1) :
    kMeanCol H hr hc (ix2 p u) = rowMean (fun c => H (ix2 p c)) := by
  unfold kMeanCol rowMean
  rw [divf_apply, RowReduce.shapeCast_a_a1_apply, broadcast_apply, laneSum_apply]
  rfl

/-- The kernel's centred block: each entry less its row's mean (the mean column broadcast along the rows). -/
def kCentred (H : FVec Ideal ⟨2, ![M, 128]⟩ .f32) (hr : (⟨2, ![M, 128]⟩ : Shape).Reduces [1] ⟨1, ![M]⟩)
    (hc : (⟨1, ![M]⟩ : Shape).ShapeCasts ⟨2, ![M, 1]⟩) (hb : (⟨2, ![M, 1]⟩ : Shape).Broadcasts ⟨2, ![M, 128]⟩) :
    FVec Ideal ⟨2, ![M, 128]⟩ .f32 :=
  subf H (broadcastTo ⟨2, ![M, 128]⟩ (kMeanCol H hr hc) hb)

theorem kCentred_apply (H : FVec Ideal ⟨2, ![M, 128]⟩ .f32) (hr : (⟨2, ![M, 128]⟩ : Shape).Reduces [1] ⟨1, ![M]⟩)
    (hc : (⟨1, ![M]⟩ : Shape).ShapeCasts ⟨2, ![M, 1]⟩) (hb : (⟨2, ![M, 1]⟩ : Shape).Broadcasts ⟨2, ![M, 128]⟩)
    (p : Fin M) (c : Fin 128) :
    kCentred H hr hc hb (ix2 p c) = H (ix2 p c) - rowMean (fun c' => H (ix2 p c')) := by
  unfold kCentred
  rw [subf_apply, RowReduce.broadcastTo_a1_ab_apply, kMeanCol_apply]

/-- The lane sum of the squared centred block, over 128: the row's variance. -/
theorem kVar_apply (H : FVec Ideal ⟨2, ![M, 128]⟩ .f32) (hr : (⟨2, ![M, 128]⟩ : Shape).Reduces [1] ⟨1, ![M]⟩)
    (hc : (⟨1, ![M]⟩ : Shape).ShapeCasts ⟨2, ![M, 1]⟩) (hb : (⟨2, ![M, 1]⟩ : Shape).Broadcasts ⟨2, ![M, 128]⟩) (p : Fin M) :
    Ideal.div (multiReduction .add [1] ⟨1, ![M]⟩ (mulf (kCentred H hr hc hb) (kCentred H hr hc hb)) 0x00000000#32 hr (.inl rfl) rfl (ix1 p)) widthW
      = rowVar (fun c => H (ix2 p c)) := by
  unfold rowVar
  rw [laneSum_apply]
  refine congrArg (Ideal.div · widthW) (Finset.sum_congr rfl fun c _ => ?_)
  rw [mulf_apply, kCentred_apply]

/-- The kernel's normalised entry `(p, j)`, as the body's scalar operations of the block `H` of third-layer
    outputs: the centred entry times the inverse square root of the row's variance plus ε, scaled and shifted by the
    two one-row parameters. -/
def kOut (H : FVec Ideal ⟨2, ![M, 128]⟩ .f32) (g be : FVec Ideal ⟨2, ![1, 128]⟩ .f32)
    (hr : (⟨2, ![M, 128]⟩ : Shape).Reduces [1] ⟨1, ![M]⟩) (hc : (⟨1, ![M]⟩ : Shape).ShapeCasts ⟨2, ![M, 1]⟩)
    (hb : (⟨2, ![M, 1]⟩ : Shape).Broadcasts ⟨2, ![M, 128]⟩) (p : Fin M) (j : Fin 128) : Ideal .f32 :=
  FloatOps.addf (FloatOps.mulf (FloatOps.mulf
      (FloatOps.subf (H (ix2 p j))
        (FloatOps.divf (multiReduction .add [1] ⟨1, ![M]⟩ H 0x00000000#32 hr (.inl rfl) rfl (ix1 p))
          (Scalar.ofBits (F := Ideal) .f32 0x43000000#32)))
      (FloatOps.rsqrt (FloatOps.addf
        (FloatOps.divf
          (multiReduction .add [1] ⟨1, ![M]⟩ (mulf (kCentred H hr hc hb) (kCentred H hr hc hb)) 0x00000000#32 hr (.inl rfl) rfl (ix1 p))
          (Scalar.ofBits (F := Ideal) .f32 0x43000000#32))
        (Scalar.ofBits (F := Ideal) .f32 0x3727C5AC#32))))
      (g (ix2 (0 : Fin 1) j))) (be (ix2 (0 : Fin 1) j))

theorem kOut_eq (H : FVec Ideal ⟨2, ![M, 128]⟩ .f32) (g be : FVec Ideal ⟨2, ![1, 128]⟩ .f32)
    (hr : (⟨2, ![M, 128]⟩ : Shape).Reduces [1] ⟨1, ![M]⟩) (hc : (⟨1, ![M]⟩ : Shape).ShapeCasts ⟨2, ![M, 1]⟩)
    (hb : (⟨2, ![M, 1]⟩ : Shape).Broadcasts ⟨2, ![M, 128]⟩) (p : Fin M) (j : Fin 128) :
    kOut H g be hr hc hb p j = normed (fun c => H (ix2 p c)) (rowBias g) (rowBias be) j := by
  unfold kOut normed
  show (H (ix2 p j) - Ideal.div _ widthW) * Ideal.rsqrt (Ideal.div _ widthW + epsW) * g (ix2 (0 : Fin 1) j) + be (ix2 (0 : Fin 1) j) = _
  rw [kVar_apply, laneSum_apply]
  rfl

end Cert.NodeNet

end
-- ==== Proof.KernelRow.lean ====
/-
  What the kernel's body leaves in its output block, read at an entry.

  At a grid point the body loads a block of 2000 feature rows, the matching 2000 rows of aggregated messages, and the
  whole of the three weight matrices, the two bias rows and the normalisation's scale and shift rows, and stores one
  block of 2000 output rows. Entry `(p, j)` of what it stores is the row function of Proof/NodeRow.lean applied to
  row `p` of the two loaded blocks: the body's three layers are the 2000-row instance of the spelling read in
  Proof/RowSpellKernel.lean, and its last lines are the normalised entry read there.
-/
import proofs.«134070_j29137058136337_1_alg».proof.Proof.Gen.KernelIdeal.Value
import proofs.«134070_j29137058136337_1_alg».proof.Proof.RowSpellKernel

noncomputable section

namespace Cert.KernelIdeal.BlockValue

open Cert.KernelIdeal Cert.KernelIdeal.Gen Idealize.ShloMosaic Idealize.ShloMosaic.ValueIdx Cert.NodeNet

/-- The body's three layers are the 2000-row instance of the kernel's spelling. -/
theorem layers_eq (P0 : Vec Ideal S2000x128 .f32) (P1 : Vec Ideal S2000x64 .f32) (P2 : Vec Ideal S192x128 .f32) (P3 : Vec Ideal S1x128 .f32) (P4 : Vec Ideal S128x128 .f32) (P5 : Vec Ideal S1x128 .f32) (P6 : Vec Ideal S128x128 .f32) :
    k0_pay2 (F := Ideal) P0 P1 P2 P3 P4 P5 P6
      = kHidden (M := 2000) P0 P1 P2 P3 P4 P5 P6 shapeCasts_S2000x64_S2000x64
          concatenates_S2000x128_S2000x64_S2000x192_d1 shapeCasts_S1x128_S1x128 broadcasts_S1x128_S2000x128 := rfl

/-- Entry `(p, c)` of the third layer's output is the three layers applied to row `p` of the two blocks. -/
theorem layers_apply (P0 : Vec Ideal S2000x128 .f32) (P1 : Vec Ideal S2000x64 .f32) (P2 : Vec Ideal S192x128 .f32) (P3 : Vec Ideal S1x128 .f32) (P4 : Vec Ideal S128x128 .f32) (P5 : Vec Ideal S1x128 .f32) (P6 : Vec Ideal S128x128 .f32) (p : Fin 2000) (c : Fin 128) :
    k0_pay2 (F := Ideal) P0 P1 P2 P3 P4 P5 P6 (ix2 p c)
      = hidden P2 (rowBias P3) P4 (rowBias P5) P6 (joined (fun a => P0 (ix2 p a)) (fun a => P1 (ix2 p a))) c := by
  rw [layers_eq]
  exact kHidden_apply (M := 2000) P0 P1 P2 P3 P4 P5 P6 _ _ _ _ p c

/-- The stored block at entry `(p, j)`: the network's output for the node whose two rows are row `p` of the
    loaded blocks. -/
theorem block_apply (P0 : Vec Ideal S2000x128 .f32) (P1 : Vec Ideal S2000x64 .f32) (P2 : Vec Ideal S192x128 .f32) (P3 : Vec Ideal S1x128 .f32) (P4 : Vec Ideal S128x128 .f32) (P5 : Vec Ideal S1x128 .f32) (P6 : Vec Ideal S128x128 .f32) (P7 : Vec Ideal S1x128 .f32) (P8 : Vec Ideal S1x128 .f32) (p : Fin 2000) (j : Fin 128) :
    Value.E9 (F := Ideal) P0 P1 P2 P3 P4 P5 P6 P7 P8 (ix2 p j)
      = nodeRow P2 (rowBias P3) P4 (rowBias P5) P6 (rowBias P7) (rowBias P8) (fun a => P0 (ix2 p a)) (fun a => P1 (ix2 p a)) j := by
  have i0 : Value.ix9_0 (ix2 p j) = ix2 p j := funext fun a => by match a with | ⟨0, _⟩ => rfl | ⟨1, _⟩ => rfl
  have i1 : Value.ix9_1 (ix2 p j) = ix1 p := funext fun a => by match a with | ⟨0, _⟩ => rfl
  have i2 : Value.ix9_2 (ix2 p j) = ix1 p := funext fun a => by match a with | ⟨0, _⟩ => rfl
  have i3 : Value.ix9_3 (ix2 p j) = ix2 (0 : Fin 1) j := funext fun a => by match a with | ⟨0, _⟩ => rfl | ⟨1, _⟩ => rfl
  have i4 : Value.ix9_4 (ix2 p j) = ix2 (0 : Fin 1) j := funext fun a => by match a with | ⟨0, _⟩ => rfl | ⟨1, _⟩ => rfl
  have e : Value.E9 (F := Ideal) P0 P1 P2 P3 P4 P5 P6 P7 P8 (ix2 p j)
      = kOut (M := 2000) (k0_pay2 (F := Ideal) P0 P1 P2 P3 P4 P5 P6) P7 P8 reduces_S2000x128_S2000 shapeCasts_S2000_S2000x1
          broadcasts_S2000x1_S2000x128 p j := by
    dsimp only [Value.E9]
    rw [i0, i1, i2, i3, i4]
    rfl
  rw [e, kOut_eq]
  unfold nodeRow
  exact congrArg (fun h => normed h (rowBias P7) (rowBias P8) j) (funext fun c => layers_apply P0 P1 P2 P3 P4 P5 P6 p c)

end Cert.KernelIdeal.BlockValue

end
-- ==== Proof.KernelStored.lean ====
/-
  What the kernel's body stores at a grid point, over arbitrary loaded blocks: entry `(p, j)` of the stored block is
  the network's output for the node whose two rows are row `p` of the loaded feature and message blocks.
-/
import proofs.«134070_j29137058136337_1_alg».proof.Proof.KernelRow
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.ValueIdx Cert.NodeNet
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-! ## What the body stores, over arbitrary loaded blocks -/

/-- Entry `(p, j)` of the block the body leaves: the network's output for the node whose rows are row `p` of the
    two loaded blocks. -/
theorem stored_apply (x0 : Vec Ideal S2000x128 .f32) (x1 : Vec Ideal S2000x64 .f32) (x2 : Vec Ideal S192x128 .f32) (x3 : Vec Ideal S1x128 .f32) (x4 : Vec Ideal S128x128 .f32) (x5 : Vec Ideal S1x128 .f32) (x6 : Vec Ideal S128x128 .f32) (x7 : Vec Ideal S1x128 .f32) (x8 : Vec Ideal S1x128 .f32) (p : Fin 2000) (j : Fin 128) :
    out0_9 (F := Ideal) x0 x1 x2 x3 x4 x5 x6 x7 x8 (ix2 p j)
      = nodeRow x2 (rowBias x3) x4 (rowBias x5) x6 (rowBias x7) (rowBias x8) (fun a => x0 (ix2 p a)) (fun a => x1 (ix2 p a)) j := by
  unfold out0_9
  simp only [View.ld_unit_zero (S := S2000x128) offsets_zero, View.ld_unit_zero (S := S2000x64) offsets_zero,
    View.ld_unit_zero (S := S192x128) offsets_zero, View.ld_unit_zero (S := S1x128) offsets_zero,
    View.ld_unit_zero (S := S128x128) offsets_zero]
  rw [Value.canon9_eq]
  exact BlockValue.block_apply x0 x1 x2 x3 x4 x5 x6 x7 x8 p j

end Cert.KernelIdeal.ArrayValue

end
-- ==== Proof.KernelBlocks.lean ====
/-
  Where the kernel's windows sit at each of the 25 grid points, and what their blocks hold.

  The feature, message and output windows move with the point: at point `t` their block is rows
  `2000·t … 2000·t + 1999`. The seven parameter windows stay at block (0, 0), which is the whole array. So row `p` of
  a loaded feature or message block is row `2000·t + p` of the array the region finds, and a loaded parameter
  block is that array.
-/
import proofs.«134070_j29137058136337_1_alg».proof.Proof.Gen.KernelIdeal.Value
import proofs.«134070_j29137058136337_1_alg».proof.Proof.NodeRow
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.ValueIdx Cert.NodeNet
open Idealize.ShloMosaic.Pipeline (Dat)

/-! ## Where each window's block sits, decided over the 25 points -/

/-- The three row-blocked windows (features, aggregated messages, output) are at block row `t`, block column 0. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_9.index t (0 : Fin 2) = t.val ∧ win0_9.index t (1 : Fin 2) = 0 :=
  (by decide +kernel : ∀ t : Fin grid0.N, _)

/-- The seven parameter windows are at block (0, 0) at every point. -/
theorem idx_whole : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-! ## A window's block, read off any array

A block read is the array precomposed with the block's embedding, whatever the array holds: these statements name
no array of the program, only the windows' index maps. -/

/-- Row `p` of the feature window's block at point `t` is row `2000·t + p` of the array. -/
theorem read_features (t : Fin cfg0.N) (p : Fin 2000) (a : Fin 128) (hr : t.val * 2000 + p.val < 50000)
    (A : S50000x128.Idx → Ideal .f32) :
    ((cfg0.win 0).blk t).view.read (Elt Ideal) A (ix2 p a) = A (ix2 (⟨t.val * 2000 + p.val, hr⟩ : Fin 50000) a) := by
  obtain ⟨e0, e1, -, -, -, -⟩ := idx_rows t
  show A (((cfg0.win 0).blk t).view.emb (ix2 p a)) = _
  refine congrArg A (funext fun d => Fin.ext ?_)
  match d with
  | ⟨0, _⟩ => show win0_0.index t (0 : Fin 2) * 2000 + 1 * p.val = t.val * 2000 + p.val; omega
  | ⟨1, _⟩ => show win0_0.index t (1 : Fin 2) * 128 + 1 * a.val = a.val; omega

/-- Row `p` of the message window's block at point `t` is row `2000·t + p` of the array. -/
theorem read_messages (t : Fin cfg0.N) (p : Fin 2000) (a : Fin 64) (hr : t.val * 2000 + p.val < 50000)
    (A : S50000x64.Idx → Ideal .f32) :
    ((cfg0.win 1).blk t).view.read (Elt Ideal) A (ix2 p a) = A (ix2 (⟨t.val * 2000 + p.val, hr⟩ : Fin 50000) a) := by
  obtain ⟨-, -, e0, e1, -, -⟩ := idx_rows t
  show A (((cfg0.win 1).blk t).view.emb (ix2 p a)) = _
  refine congrArg A (funext fun d => Fin.ext ?_)
  match d with
  | ⟨0, _⟩ => show win0_1.index t (0 : Fin 2) * 2000 + 1 * p.val = t.val * 2000 + p.val; omega
  | ⟨1, _⟩ => show win0_1.index t (1 : Fin 2) * 64 + 1 * a.val = a.val; omega

/-- Row `p` of the output window's block at point `t` is row `2000·t + p` of the array. -/
theorem read_out (t : Fin cfg0.N) (p : Fin 2000) (a : Fin 128) (hr : t.val * 2000 + p.val < 50000)
    (A : S50000x128.Idx → Ideal .f32) :
    ((cfg0.win 9).blk t).view.read (Elt Ideal) A (ix2 p a) = A (ix2 (⟨t.val * 2000 + p.val, hr⟩ : Fin 50000) a) := by
  obtain ⟨-, -, -, -, e0, e1⟩ := idx_rows t
  show A (((cfg0.win 9).blk t).view.emb (ix2 p a)) = _
  refine congrArg A (funext fun d => Fin.ext ?_)
  match d with
  | ⟨0, _⟩ => show win0_9.index t (0 : Fin 2) * 2000 + 1 * p.val = t.val * 2000 + p.val; omega
  | ⟨1, _⟩ => show win0_9.index t (1 : Fin 2) * 128 + 1 * a.val = a.val; omega

/-- Window 2's block is the whole of its array at every point. -/
theorem read_whole2 (t : Fin cfg0.N) (A : S192x128.Idx → Ideal .f32) :
    ((cfg0.win 2).blk t).view.read (Elt Ideal) A = A := by
  obtain ⟨⟨e0, e1⟩, -, -, -, -, -, -⟩ := idx_whole t
  funext y
  show A (((cfg0.win 2).blk t).view.emb y) = A y
  refine congrArg A (funext fun d => Fin.ext ?_)
  match d with
  | ⟨0, _⟩ => show win0_2.index t (0 : Fin 2) * 192 + 1 * (y 0).val = (y 0).val; omega
  | ⟨1, _⟩ => show win0_2.index t (1 : Fin 2) * 128 + 1 * (y 1).val = (y 1).val; omega

/-- Window 3's block is the whole of its array at every point. -/
theorem read_whole3 (t : Fin cfg0.N) (A : S1x128.Idx → Ideal .f32) :
    ((cfg0.win 3).blk t).view.read (Elt Ideal) A = A := by
  obtain ⟨-, ⟨e0, e1⟩, -, -, -, -, -⟩ := idx_whole t
  funext y
  show A (((cfg0.win 3).blk t).view.emb y) = A y
  refine congrArg A (funext fun d => Fin.ext ?_)
  match d with
  | ⟨0, _⟩ => show win0_3.index t (0 : Fin 2) * 1 + 1 * (y 0).val = (y 0).val; omega
  | ⟨1, _⟩ => show win0_3.index t (1 : Fin 2) * 128 + 1 * (y 1).val = (y 1).val; omega

/-- Window 4's block is the whole of its array at every point. -/
theorem read_whole4 (t : Fin cfg0.N) (A : S128x128.Idx → Ideal .f32) :
    ((cfg0.win 4).blk t).view.read (Elt Ideal) A = A := by
  obtain ⟨-, -, ⟨e0, e1⟩, -, -, -, -⟩ := idx_whole t
  funext y
  show A (((cfg0.win 4).blk t).view.emb y) = A y
  refine congrArg A (funext fun d => Fin.ext ?_)
  match d with
  | ⟨0, _⟩ => show win0_4.index t (0 : Fin 2) * 128 + 1 * (y 0).val = (y 0).val; omega
  | ⟨1, _⟩ => show win0_4.index t (1 : Fin 2) * 128 + 1 * (y 1).val = (y 1).val; omega

/-- Window 5's block is the whole of its array at every point. -/
theorem read_whole5 (t : Fin cfg0.N) (A : S1x128.Idx → Ideal .f32) :
    ((cfg0.win 5).blk t).view.read (Elt Ideal) A = A := by
  obtain ⟨-, -, -, ⟨e0, e1⟩, -, -, -⟩ := idx_whole t
  funext y
  show A (((cfg0.win 5).blk t).view.emb y) = A y
  refine congrArg A (funext fun d => Fin.ext ?_)
  match d with
  | ⟨0, _⟩ => show win0_5.index t (0 : Fin 2) * 1 + 1 * (y 0).val = (y 0).val; omega
  | ⟨1, _⟩ => show win0_5.index t (1 : Fin 2) * 128 + 1 * (y 1).val = (y 1).val; omega

/-- Window 6's block is the whole of its array at every point. -/
theorem read_whole6 (t : Fin cfg0.N) (A : S128x128.Idx → Ideal .f32) :
    ((cfg0.win 6).blk t).view.read (Elt Ideal) A = A := by
  obtain ⟨-, -, -, -, ⟨e0, e1⟩, -, -⟩ := idx_whole t
  funext y
  show A (((cfg0.win 6).blk t).view.emb y) = A y
  refine congrArg A (funext fun d => Fin.ext ?_)
  match d with
  | ⟨0, _⟩ => show win0_6.index t (0 : Fin 2) * 128 + 1 * (y 0).val = (y 0).val; omega
  | ⟨1, _⟩ => show win0_6.index t (1 : Fin 2) * 128 + 1 * (y 1).val = (y 1).val; omega

/-- Window 7's block is the whole of its array at every point. -/
theorem read_whole7 (t : Fin cfg0.N) (A : S1x128.Idx → Ideal .f32) :
    ((cfg0.win 7).blk t).view.read (Elt Ideal) A = A := by
  obtain ⟨-, -, -, -, -, ⟨e0, e1⟩, -⟩ := idx_whole t
  funext y
  show A (((cfg0.win 7).blk t).view.emb y) = A y
  refine congrArg A (funext fun d => Fin.ext ?_)
  match d with
  | ⟨0, _⟩ => show win0_7.index t (0 : Fin 2) * 1 + 1 * (y 0).val = (y 0).val; omega
  | ⟨1, _⟩ => show win0_7.index t (1 : Fin 2) * 128 + 1 * (y 1).val = (y 1).val; omega

/-- Window 8's block is the whole of its array at every point. -/
theorem read_whole8 (t : Fin cfg0.N) (A : S1x128.Idx → Ideal .f32) :
    ((cfg0.win 8).blk t).view.read (Elt Ideal) A = A := by
  obtain ⟨-, -, -, -, -, -, ⟨e0, e1⟩⟩ := idx_whole t
  funext y
  show A (((cfg0.win 8).blk t).view.emb y) = A y
  refine congrArg A (funext fun d => Fin.ext ?_)
  match d with
  | ⟨0, _⟩ => show win0_8.index t (0 : Fin 2) * 1 + 1 * (y 0).val = (y 0).val; omega
  | ⟨1, _⟩ => show win0_8.index t (1 : Fin 2) * 128 + 1 * (y 1).val = (y 1).val; omega

end Cert.KernelIdeal.ArrayValue

end
-- ==== Proof.KernelFlush.lean ====
/-
  What each grid point writes back, and that the 25 blocks tile the output.

  Point `t` writes back rows `2000·t … 2000·t + 1999` of ONE array: row `r` of it is the network's output for node `r`,
  from row `r` of the features and of the aggregated messages as the region finds them. Every row of the output is in
  the block of exactly the point `r / 2000`, so after the run the output array is that array.
-/
import proofs.«134070_j29137058136337_1_alg».proof.Proof.KernelStored
import proofs.«134070_j29137058136337_1_alg».proof.Proof.KernelBlocks
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.ValueIdx Cert.NodeNet
open Idealize.ShloMosaic.Pipeline (Dat)

variable (m : (ℓ : Loc nD τ sig) → Buf (Elt Ideal) ℓ) (ρ : Dev nD → PrngReg)

/-! ## What point `t` writes back -/

/-- Point `t` writes back block `t` of the one array `nodeArray` of the arrays the region finds (named here by the
    window that stages each). -/
theorem flushed_eq (c : Dev nD) (t : Fin cfg0.N) :
    (dats m 0 c).flushed 9 t = ((cfg0.win 9).blk t).view.read (Elt Ideal)
      (nodeArray (V m c (Pipeline.arrRef spec0 0)) (V m c (Pipeline.arrRef spec0 1)) (V m c (Pipeline.arrRef spec0 2)) (rowBias (V m c (Pipeline.arrRef spec0 3))) (V m c (Pipeline.arrRef spec0 4)) (rowBias (V m c (Pipeline.arrRef spec0 5))) (V m c (Pipeline.arrRef spec0 6)) (rowBias (V m c (Pipeline.arrRef spec0 7))) (rowBias (V m c (Pipeline.arrRef spec0 8)))) := by
  rw [Value.flushed9]
  funext y
  obtain ⟨p, j, rfl⟩ : ∃ (p : Fin 2000) (j : Fin 128), y = ix2 p j := ⟨y 0, y 1, eq_ix2 y⟩
  have ht : t.val < 25 := t.isLt
  have hr : t.val * 2000 + p.val < 50000 := by have := p.isLt; omega
  refine Eq.trans ?_ (read_out t p j hr _).symm
  rw [nodeArray_apply]
  show out0_9 (iblk m c 0 t) (iblk m c 1 t) (iblk m c 2 t) (iblk m c 3 t) (iblk m c 4 t) (iblk m c 5 t) (iblk m c 6 t) (iblk m c 7 t) (iblk m c 8 t) (ix2 p j) = _
  refine (stored_apply (iblk m c 0 t) (iblk m c 1 t) (iblk m c 2 t) (iblk m c 3 t) (iblk m c 4 t) (iblk m c 5 t) (iblk m c 6 t) (iblk m c 7 t) (iblk m c 8 t) p j).trans ?_
  have hx : (fun a : Fin 128 => iblk m c 0 t (ix2 p a)) = fun a => (V m c (Pipeline.arrRef spec0 0)) (ix2 (⟨t.val * 2000 + p.val, hr⟩ : Fin 50000) a) :=
    funext fun a => read_features t p a hr _
  have hm : (fun a : Fin 64 => iblk m c 1 t (ix2 p a)) = fun a => (V m c (Pipeline.arrRef spec0 1)) (ix2 (⟨t.val * 2000 + p.val, hr⟩ : Fin 50000) a) :=
    funext fun a => read_messages t p a hr _
  have h2 : iblk m c 2 t = (V m c (Pipeline.arrRef spec0 2)) := read_whole2 t _
  have h3 : iblk m c 3 t = (V m c (Pipeline.arrRef spec0 3)) := read_whole3 t _
  have h4 : iblk m c 4 t = (V m c (Pipeline.arrRef spec0 4)) := read_whole4 t _
  have h5 : iblk m c 5 t = (V m c (Pipeline.arrRef spec0 5)) := read_whole5 t _
  have h6 : iblk m c 6 t = (V m c (Pipeline.arrRef spec0 6)) := read_whole6 t _
  have h7 : iblk m c 7 t = (V m c (Pipeline.arrRef spec0 7)) := read_whole7 t _
  have h8 : iblk m c 8 t = (V m c (Pipeline.arrRef spec0 8)) := read_whole8 t _
  rw [hx, hm, h2, h3, h4, h5, h6, h7, h8]

/-! ## The 25 blocks tile the array -/

/-- An index is in point `t`'s output block iff each coordinate is in the block's range on its axis. -/
theorem mem_blk (t : Fin cfg0.N) (i : S50000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v9).slice (win0_9.rect t)).set ↔ _
  rw [View.set_slice_whole, Rect.mem_set_unit]
  exact Iff.rfl

/-- Row `r` of the output is in the block of point `r / 2000`. -/
theorem cover (i : S50000x128.Idx) : ∃ t : Fin cfg0.N, (cfg0.win 9).flush t = true ∧ i ∈ ((cfg0.win 9).blk t).view.set := by
  have hi0 : (i 0).val < 50000 := (i 0).isLt
  have hi1 : (i 1).val < 128 := (i 1).isLt
  have hq : (i 0).val / 2000 < 25 := by omega
  obtain ⟨-, -, -, -, e0, e1⟩ := idx_rows ⟨(i 0).val / 2000, hq⟩
  have e0' : win0_9.index ⟨(i 0).val / 2000, hq⟩ (0 : Fin 2) = (i 0).val / 2000 := e0
  refine ⟨⟨(i 0).val / 2000, hq⟩, flush0_9 _, ?_⟩
  rw [mem_blk]
  intro a
  match a with
  | ⟨0, _⟩ =>
    show win0_9.index ⟨(i 0).val / 2000, hq⟩ (0 : Fin 2) * 2000 ≤ (i 0).val ∧ (i 0).val < win0_9.index ⟨(i 0).val / 2000, hq⟩ (0 : Fin 2) * 2000 + 2000
    omega
  | ⟨1, _⟩ =>
    show win0_9.index ⟨(i 0).val / 2000, hq⟩ (1 : Fin 2) * 128 ≤ (i 1).val ∧ (i 1).val < win0_9.index ⟨(i 0).val / 2000, hq⟩ (1 : Fin 2) * 128 + 128
    omega

/-- After the run the output array is `nodeArray` of the arrays the region finds. -/
theorem final_found (c : Dev nD) :
    (dats m 0 c).arrAt 9 cfg0.N = nodeArray (V m c main_arg0) (V m c main_v4) (V m c main_arg3) (rowBias (V m c main_v5)) (V m c main_arg5) (rowBias (V m c main_v6)) (V m c main_arg7) (rowBias (V m c main_v7)) (rowBias (V m c main_v8)) :=
  (dats m 0 c).arrAt_eq_of_cover 9 _ (fun t _ => flushed_eq m c t) cover

end Cert.KernelIdeal.ArrayValue

end
-- ==== Proof.SegSum.lean ====
/-
  The aggregated messages: one function for both programs.

  Both programs begin with the same six host operations: row 1 of the edge-index array (the destination node of each
  of the 800000 edges) is sliced off and laid as a column, and the 800000 message rows are scatter-added into a zero
  array of 50000 node rows at those destinations. The result is an array [50000, 64] that depends on the edge-index
  and message arguments only. It is never opened here: it enters both programs' results as the same function of the
  same arguments, so its name is all that is needed.
-/
import Idealize.ShloMosaic.PureOps
import Idealize.ShloMosaic.PureOps.Ideal

noncomputable section

namespace Cert.NodeNet

open Idealize.ShloMosaic

/-- The messages summed into their destination nodes, from the edge-index array and the message array; the side
    conditions of the five shape operations are parameters (any two proofs of them are equal). -/
def segSum (sd : ScatterDims (⟨2, ![50000, 64]⟩ : Shape) ⟨2, ![800000, 1]⟩ ⟨2, ![800000, 64]⟩)
    (hsl : (⟨2, ![2, 800000]⟩ : Shape).Slices ![1, 0] ⟨2, ![1, 800000]⟩)
    (hc : (⟨2, ![1, 800000]⟩ : Shape).ShapeCasts ⟨1, ![800000]⟩)
    (hz : (⟨0, ![]⟩ : Shape).BroadcastsInDim ⟨2, ![50000, 64]⟩ (![] : Fin 0 → Fin 2))
    (hcol : (⟨1, ![800000]⟩ : Shape).BroadcastsInDim ⟨2, ![800000, 1]⟩ (![0] : Fin 1 → Fin 2))
    (ei : IVec ⟨2, ![2, 800000]⟩ 32) (msg : FVec Ideal ⟨2, ![800000, 64]⟩ .f32) : FVec Ideal ⟨2, ![50000, 64]⟩ .f32 :=
  Host.scatterAdd sd
    (broadcastInDim ⟨2, ![50000, 64]⟩ ![] hz (constant (F := Ideal) ⟨0, ![]⟩ .f32 0x00000000#32))
    (broadcastInDim ⟨2, ![800000, 1]⟩ ![0] hcol
      (shapeCast ⟨1, ![800000]⟩ (extractStridedSlice ⟨2, ![1, 800000]⟩ ![1, 0] ei hsl) hc))
    msg

end Cert.NodeNet

end
-- ==== Proof.KernelFound.lean ====
/-
  The arrays the kernel's region finds, from the program's arguments: the aggregated messages are the six host
  operations before the call (the one function `segSum`), and each of the four parameter vectors is re-laid as a
  one-row matrix, whose entry in column `e` is the vector's entry `e`.
-/
import proofs.«134070_j29137058136337_1_alg».proof.Proof.Gen.KernelIdeal.Value
import proofs.«134070_j29137058136337_1_alg».proof.Proof.NodeRow
import proofs.«134070_j29137058136337_1_alg».proof.Proof.SegSum
import Idealize.ShloMosaic.Lib.Pipeline.Value
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Cert.NodeNet
open Idealize.ShloMosaic.Pipeline (Dat)

variable (m : (ℓ : Loc nD τ sig) → Buf (Elt Ideal) ℓ) (ρ : Dev nD → PrngReg)

/-! ## The arrays the region finds, from the arguments -/

/-- The aggregated messages as the kernel's program computes them from its arguments. -/
abbrev aggregated (c : Dev nD) : FVec Ideal ⟨2, ![50000, 64]⟩ .f32 :=
  segSum scatter_S50000x64_S800000x1_S800000x64_1_0_0_1 slices_S2x800000_S1x800000_1_0 shapeCasts_S1x800000_S800000
    bcast_S_S50000x64 bcast_S800000_S800000x1_0 (m ((c : Thread nD τ).loc main_arg1)) (m ((c : Thread nD τ).loc main_arg2))

/-- The second window's array: the six host operations before the call. -/
theorem found_messages (c : Dev nD) : (V m c main_v4 : S50000x64.Idx → Ideal .f32) = aggregated m c := by
  dsimp only [Gen.V, Gen.hostOps0]
  after_results
  rfl

/-- A parameter vector re-laid as a one-row matrix reads, at column `e`, the vector's entry `e`. -/
theorem rowBias_reshape (b : (⟨1, ![128]⟩ : Shape).Idx → EReal) (h : (⟨1, ![128]⟩ : Shape).ShapeCasts ⟨2, ![1, 128]⟩) :
    rowBias (shapeCast ⟨2, ![1, 128]⟩ b h) = vecBias b :=
  funext fun e => shapeCast_apply b h (ix2 (0 : Fin 1) e) (ix1 e) (by
    rw [Shape.rowMajor_val_one, Shape.rowMajor_val_two]
    show e.val = 0 * 128 + e.val
    omega)

theorem found_b1 (c : Dev nD) : rowBias (V m c main_v5) = vecBias (m ((c : Thread nD τ).loc main_arg4)) := by
  have e : (V m c main_v5 : S1x128.Idx → Ideal .f32) = shapeCast S1x128 (m ((c : Thread nD τ).loc main_arg4)) shapeCasts_S128_S1x128 := by
    dsimp only [Gen.V, Gen.hostOps0]; after_results; rfl
  rw [e]; exact rowBias_reshape _ _

theorem found_b2 (c : Dev nD) : rowBias (V m c main_v6) = vecBias (m ((c : Thread nD τ).loc main_arg6)) := by
  have e : (V m c main_v6 : S1x128.Idx → Ideal .f32) = shapeCast S1x128 (m ((c : Thread nD τ).loc main_arg6)) shapeCasts_S128_S1x128 := by
    dsimp only [Gen.V, Gen.hostOps0]; after_results; rfl
  rw [e]; exact rowBias_reshape _ _

theorem found_scale (c : Dev nD) : rowBias (V m c main_v7) = vecBias (m ((c : Thread nD τ).loc main_arg8)) := by
  have e : (V m c main_v7 : S1x128.Idx → Ideal .f32) = shapeCast S1x128 (m ((c : Thread nD τ).loc main_arg8)) shapeCasts_S128_S1x128 := by
    dsimp only [Gen.V, Gen.hostOps0]; after_results; rfl
  rw [e]; exact rowBias_reshape _ _

theorem found_shift (c : Dev nD) : rowBias (V m c main_v8) = vecBias (m ((c : Thread nD τ).loc main_arg9)) := by
  have e : (V m c main_v8 : S1x128.Idx → Ideal .f32) = shapeCast S1x128 (m ((c : Thread nD τ).loc main_arg9)) shapeCasts_S128_S1x128 := by
    dsimp only [Gen.V, Gen.hostOps0]; after_results; rfl
  rw [e]; exact rowBias_reshape _ _

end Cert.KernelIdeal.ArrayValue

end
-- ==== Proof.KernelArray.lean ====
/-
  The kernel's run, read: every weakly fair execution of the kernel's program ends with the output array at
  `nodeArray` of the program's arguments — the arrays the region finds (Proof/KernelFound.lean) put into what the 25
  points leave (Proof/KernelFlush.lean) — and the arguments unchanged.
-/
import proofs.«134070_j29137058136337_1_alg».proof.Proof.KernelFlush
import proofs.«134070_j29137058136337_1_alg».proof.Proof.KernelFound

noncomputable section

namespace Cert.KernelIdeal.ArrayValue

open Cert.KernelIdeal Cert.KernelIdeal.Gen Idealize.ShloMosaic Idealize.ShloMosaic.TcCoe Idealize.SL.Sem
open Idealize.ShloMosaic.ValueIdx Cert.NodeNet
open Idealize.ShloMosaic.Pipeline (Dat)

variable (m : (ℓ : Loc nD τ sig) → Buf (Elt Ideal) ℓ) (ρ : Dev nD → PrngReg)

/-- After the run the output array is `nodeArray` of the program's arguments. -/
theorem final (c : Dev nD) :
    (dats m 0 c).arrAt 9 cfg0.N = nodeArray (m ((c : Thread nD τ).loc main_arg0)) (aggregated m c) (m ((c : Thread nD τ).loc main_arg3)) (vecBias (m ((c : Thread nD τ).loc main_arg4))) (m ((c : Thread nD τ).loc main_arg5)) (vecBias (m ((c : Thread nD τ).loc main_arg6))) (m ((c : Thread nD τ).loc main_arg7)) (vecBias (m ((c : Thread nD τ).loc main_arg8))) (vecBias (m ((c : Thread nD τ).loc main_arg9))) := by
  rw [final_found, found_messages, found_b1, found_b2, found_scale, found_shift, V_main_arg0, V_main_arg3, V_main_arg5, V_main_arg7]

/-! ## The run -/

/-- Every weakly fair execution of the kernel's program terminates with the output array at `nodeArray` of the
    arguments and the arguments unchanged. -/
theorem run : θ_run defs (onTc (τ := τ) (main (F := Ideal))) ⟨m, fun _ => 0, ρ⟩ fun r => ∀ c : Dev nD,
      r.2.mem ((c : Thread nD τ).loc main_v9) = nodeArray (m ((c : Thread nD τ).loc main_arg0)) (aggregated m c) (m ((c : Thread nD τ).loc main_arg3)) (vecBias (m ((c : Thread nD τ).loc main_arg4))) (m ((c : Thread nD τ).loc main_arg5)) (vecBias (m ((c : Thread nD τ).loc main_arg6))) (m ((c : Thread nD τ).loc main_arg7)) (vecBias (m ((c : Thread nD τ).loc main_arg8))) (vecBias (m ((c : Thread nD τ).loc main_arg9)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.ArrayValue

end
-- ==== Proof.RefLine.lean ====
/-
  The reference program's host line, run.

  The reference is one straight line of 61 host operations: the scatter-add of the edge messages into their
  destination nodes, the concatenation with the node features, three dense layers (the first two followed by the
  leaky rectifier, which the program calls as a function: its seven operations are listed here at each of the two
  calls, over that call's own buffers), and the normalisation of every row. Run in order from any memory, every
  buffer ends at the fold of the operations over the launch contents.
-/
import proofs.«134070_j29137058136337_1_alg».proof.Proof.Gen.ReferenceIdeal
import Idealize.ShloMosaic.Lib.StableHlo.Run

noncomputable section

namespace Cert.ReferenceIdeal.HostLine

open Cert.ReferenceIdeal Cert.ReferenceIdeal.Gen Idealize.ShloMosaic Idealize.ShloMosaic.TcCoe Idealize.SL.Sem Idealize.ShloMosaic.StableHlo

variable {F : FTy → Type} [FloatOps F]

/-- The program's operations, in order; a called function's operations stand where the call is. -/
abbrev ops : List (HloOp τ sig (Elt F)) :=
  [ unary main_arg1 main_v0 ((extractStridedSlice S1x800000 ![1, 0] · slices_S2x800000_S1x800000_1_0) : (⟨S2x800000, .i32⟩ : BufTy).Contents (Elt F) → (⟨S1x800000, .i32⟩ : BufTy).Contents (Elt F)),
    reshape main_v0 main_v1 rfl shapeCasts_S1x800000_S800000,
    nullary main_cst (constant S_ .f32 0x00000000#32),
    unary main_cst main_v2 (broadcastInDim S50000x64 ![] bcast_S_S50000x64 : (⟨S_, .f32⟩ : BufTy).Contents (Elt F) → (⟨S50000x64, .f32⟩ : BufTy).Contents (Elt F)),
    unary main_v1 main_v3 (broadcastInDim S800000x1 ![0] bcast_S800000_S800000x1_0 : (⟨S800000, .i32⟩ : BufTy).Contents (Elt F) → (⟨S800000x1, .i32⟩ : BufTy).Contents (Elt F)),
    ternary main_v2 main_v3 main_arg2 main_v4 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_arg0 main_v4 main_v5 ((fun a b => concatenate S50000x192 1 [⟨S50000x128, a⟩, ⟨S50000x64, b⟩] concatenates_S50000x128_S50000x64_S50000x192_d1) : (⟨S50000x128, .f32⟩ : BufTy).Contents (Elt F) → (⟨S50000x64, .f32⟩ : BufTy).Contents (Elt F) → (⟨S50000x192, .f32⟩ : BufTy).Contents (Elt F)),
    binary main_v5 main_arg3 main_v6 ((fun l r => Host.dotGeneral dot_S50000x192_S192x128_S50000x128_1_0_0_1_n_n none l r) : (⟨S50000x192, .f32⟩ : BufTy).Contents (Elt F) → (⟨S192x128, .f32⟩ : BufTy).Contents (Elt F) → (⟨S50000x128, .f32⟩ : BufTy).Contents (Elt F)),
    unary main_arg4 main_v7 (broadcastInDim S1x128 ![1] bcast_S128_S1x128_1 : (⟨S128, .f32⟩ : BufTy).Contents (Elt F) → (⟨S1x128, .f32⟩ : BufTy).Contents (Elt F)),
    unary main_v7 main_v8 (broadcastInDim S50000x128 ![0, 1] bcast_S1x128_S50000x128_0_1 : (⟨S1x128, .f32⟩ : BufTy).Contents (Elt F) → (⟨S50000x128, .f32⟩ : BufTy).Contents (Elt F)),
    binary main_v6 main_v8 main_v9 (addf : (⟨S50000x128, .f32⟩ : BufTy).Contents (Elt F) → (⟨S50000x128, .f32⟩ : BufTy).Contents (Elt F) → (⟨S50000x128, .f32⟩ : BufTy).Contents (Elt F)),
    nullary main_cst_0 (constant S_ .f32 0x3E4CCCCD#32),
    TRef.nullary main_call0.cst (constant S_ .f32 0x00000000#32),
    TRef.unary main_call0.cst main_call0.v0 (broadcastInDim S50000x128 ![] bcast_S_S50000x128),
    TRef.binary (.of main_v9) main_call0.v0 main_call0.v1 (cmpf .oge),
    TRef.unary (.of main_cst_0) main_call0.v2 id,
    TRef.unary main_call0.v2 main_call0.v3 (broadcastInDim S50000x128 ![] bcast_S_S50000x128),
    TRef.binary main_call0.v3 (.of main_v9) main_call0.v4 mulf,
    TRef.ternary main_call0.v1 (.of main_v9) main_call0.v4 main_call0.call0.v0 select,
    binary main_v10 main_arg5 main_v11 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v12 (broadcastInDim S1x128 ![1] bcast_S128_S1x128_1 : (⟨S128, .f32⟩ : BufTy).Contents (Elt F) → (⟨S1x128, .f32⟩ : BufTy).Contents (Elt F)),
    unary main_v12 main_v13 (broadcastInDim S50000x128 ![0, 1] bcast_S1x128_S50000x128_0_1 : (⟨S1x128, .f32⟩ : BufTy).Contents (Elt F) → (⟨S50000x128, .f32⟩ : BufTy).Contents (Elt F)),
    binary main_v11 main_v13 main_v14 (addf : (⟨S50000x128, .f32⟩ : BufTy).Contents (Elt F) → (⟨S50000x128, .f32⟩ : BufTy).Contents (Elt F) → (⟨S50000x128, .f32⟩ : BufTy).Contents (Elt F)),
    nullary main_cst_1 (constant S_ .f32 0x3E4CCCCD#32),
    TRef.nullary main_call1.cst (constant S_ .f32 0x00000000#32),
    TRef.unary main_call1.cst main_call1.v0 (broadcastInDim S50000x128 ![] bcast_S_S50000x128),
    TRef.binary (.of main_v14) main_call1.v0 main_call1.v1 (cmpf .oge),
    TRef.unary (.of main_cst_1) main_call1.v2 id,
    TRef.unary main_call1.v2 main_call1.v3 (broadcastInDim S50000x128 ![] bcast_S_S50000x128),
    TRef.binary main_call1.v3 (.of main_v14) main_call1.v4 mulf,
    TRef.ternary main_call1.v1 (.of main_v14) main_call1.v4 main_call1.call0.v0 select,
    binary main_v15 main_arg7 main_v16 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_2 (constant S_ .f32 0x00000000#32),
    binary main_v16 main_cst_2 main_v17 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v17 main_v18 (broadcastInDim S50000x1 ![0] bcast_S50000_S50000x1_0 : (⟨S50000, .f32⟩ : BufTy).Contents (Elt F) → (⟨S50000x1, .f32⟩ : BufTy).Contents (Elt F)),
    nullary main_cst_3 (constant S_ .f32 0x43000000#32),
    unary main_cst_3 main_v19 (broadcastInDim S50000x1 ![] bcast_S_S50000x1 : (⟨S_, .f32⟩ : BufTy).Contents (Elt F) → (⟨S50000x1, .f32⟩ : BufTy).Contents (Elt F)),
    binary main_v18 main_v19 main_v20 (Host.divf : (⟨S50000x1, .f32⟩ : BufTy).Contents (Elt F) → (⟨S50000x1, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v16 main_v21 main_v22 (subf : (⟨S50000x128, .f32⟩ : BufTy).Contents (Elt F) → (⟨S50000x128, .f32⟩ : BufTy).Contents (Elt F) → (⟨S50000x128, .f32⟩ : BufTy).Contents (Elt F)),
    binary main_v22 main_v22 main_v23 (mulf : (⟨S50000x128, .f32⟩ : BufTy).Contents (Elt F) → (⟨S50000x128, .f32⟩ : BufTy).Contents (Elt F) → (⟨S50000x128, .f32⟩ : BufTy).Contents (Elt F)),
    nullary main_cst_4 (constant S_ .f32 0x00000000#32),
    binary main_v23 main_cst_4 main_v24 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v24 main_v25 (broadcastInDim S50000x1 ![0] bcast_S50000_S50000x1_0 : (⟨S50000, .f32⟩ : BufTy).Contents (Elt F) → (⟨S50000x1, .f32⟩ : BufTy).Contents (Elt F)),
    nullary main_cst_5 (constant S_ .f32 0x43000000#32),
    unary main_cst_5 main_v26 (broadcastInDim S50000x1 ![] bcast_S_S50000x1 : (⟨S_, .f32⟩ : BufTy).Contents (Elt F) → (⟨S50000x1, .f32⟩ : BufTy).Contents (Elt F)),
    binary main_v25 main_v26 main_v27 (Host.divf : (⟨S50000x1, .f32⟩ : BufTy).Contents (Elt F) → (⟨S50000x1, .f32⟩ : BufTy).Contents (Elt F) → (⟨S50000x1, .f32⟩ : BufTy).Contents (Elt F)),
    unary main_v20 main_v28 (broadcastInDim S50000x128 ![0, 1] bcast_S50000x1_S50000x128_0_1 : (⟨S50000x1, .f32⟩ : BufTy).Contents (Elt F) → (⟨S50000x128, .f32⟩ : BufTy).Contents (Elt F)),
    binary main_v16 main_v28 main_v29 (subf : (⟨S50000x128, .f32⟩ : BufTy).Contents (Elt F) → (⟨S50000x128, .f32⟩ : BufTy).Contents (Elt F) → (⟨S50000x128, .f32⟩ : BufTy).Contents (Elt F)),
    nullary main_cst_6 (constant S_ .f32 0x3727C5AC#32),
    unary main_cst_6 main_v30 (broadcastInDim S50000x1 ![] bcast_S_S50000x1 : (⟨S_, .f32⟩ : BufTy).Contents (Elt F) → (⟨S50000x1, .f32⟩ : BufTy).Contents (Elt F)),
    binary main_v27 main_v30 main_v31 (addf : (⟨S50000x1, .f32⟩ : BufTy).Contents (Elt F) → (⟨S50000x1, .f32⟩ : BufTy).Contents (Elt F) → (⟨S50000x1, .f32⟩ : BufTy).Contents (Elt F)),
    unary main_v31 main_v32 (Host.rsqrt : (⟨S50000x1, .f32⟩ : BufTy).Contents (Elt F) → (⟨S50000x1, .f32⟩ : BufTy).Contents (Elt F)),
    unary main_v32 main_v33 (broadcastInDim S50000x128 ![0, 1] bcast_S50000x1_S50000x128_0_1 : (⟨S50000x1, .f32⟩ : BufTy).Contents (Elt F) → (⟨S50000x128, .f32⟩ : BufTy).Contents (Elt F)),
    binary main_v29 main_v33 main_v34 (mulf : (⟨S50000x128, .f32⟩ : BufTy).Contents (Elt F) → (⟨S50000x128, .f32⟩ : BufTy).Contents (Elt F) → (⟨S50000x128, .f32⟩ : BufTy).Contents (Elt F)),
    unary main_arg8 main_v35 (broadcastInDim S1x128 ![1] bcast_S128_S1x128_1 : (⟨S128, .f32⟩ : BufTy).Contents (Elt F) → (⟨S1x128, .f32⟩ : BufTy).Contents (Elt F)),
    unary main_v35 main_v36 (broadcastInDim S50000x128 ![0, 1] bcast_S1x128_S50000x128_0_1 : (⟨S1x128, .f32⟩ : BufTy).Contents (Elt F) → (⟨S50000x128, .f32⟩ : BufTy).Contents (Elt F)),
    binary main_v34 main_v36 main_v37 (mulf : (⟨S50000x128, .f32⟩ : BufTy).Contents (Elt F) → (⟨S50000x128, .f32⟩ : BufTy).Contents (Elt F) → (⟨S50000x128, .f32⟩ : BufTy).Contents (Elt F)),
    unary main_arg9 main_v38 (broadcastInDim S1x128 ![1] bcast_S128_S1x128_1 : (⟨S128, .f32⟩ : BufTy).Contents (Elt F) → (⟨S1x128, .f32⟩ : BufTy).Contents (Elt F)),
    unary main_v38 main_v39 (broadcastInDim S50000x128 ![0, 1] bcast_S1x128_S50000x128_0_1 : (⟨S1x128, .f32⟩ : BufTy).Contents (Elt F) → (⟨S50000x128, .f32⟩ : BufTy).Contents (Elt F)),
    binary main_v37 main_v39 main_v40 (addf : (⟨S50000x128, .f32⟩ : BufTy).Contents (Elt F) → (⟨S50000x128, .f32⟩ : BufTy).Contents (Elt F) → (⟨S50000x128, .f32⟩ : BufTy).Contents (Elt F)) ]

-- sixty-one binds re-associated: one step of the rewriting recursion per statement
set_option maxRecDepth 2048 in
/-- The program is that line: the called functions unfolded at their calls, the sequencing re-associated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., reshape_bufs_sub .., nullary_bufs_sub .., unary_bufs_sub .., unary_bufs_sub .., ternary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- From any memory with zero counters every weakly fair execution of the program terminates, and every buffer
    then holds the fold of the operations over the launch contents. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HostLine

end
-- ==== Proof.LibMlpRows.lean ====
/-
  A two-layer perceptron applied to every row of a matrix, read at one entry over the extended reals.

  For x : [M, K], W1 : [K, H], W2 : [H, N] the entry (p, j) of  relu(x · W1 + b1) · W2 + b2  is

      mlp2Row W1 b1 W2 b2 (row p of x) j
        = (∑ e, max ((∑ k, x(p, k) · W1(k, e)) + b1 e) 0 · W2(e, j)) + b2 j,

  a function of ROW p of x alone — which is why computing it block of rows by block of rows, or on the whole
  matrix at once, gives the same array. Two spellings are read here: a kernel's (matrix-unit products into
  zero accumulators, each bias a one-row matrix [1, ·] broadcast down the rows, the rectifier a maximum with a
  zero splat) and the host's (dot_general, each bias a vector [·] laid as a row and broadcast down the rows,
  the rectifier a maximum with a broadcast zero). No entry needs to be finite: nothing is re-associated or
  distributed, both spellings are the same sums in the same order.
-/
import Idealize.ShloMosaic.Lib.ValueIdx
import Idealize.ShloMosaic.Lib.ValueLayout
import Idealize.ShloMosaic.Lib.Pipeline.Value
import Idealize.ShloMosaic.PureOps.Ideal.Laws
import proofs.«134070_j29137058136337_1_alg».proof.Proof.LibPlainMatmul

noncomputable section

open scoped BigOperators

namespace Cert.MlpRows

open Idealize.ShloMosaic Idealize.ShloMosaic.ValueIdx

variable {M K H N : Nat}

/-- The extended real the f32 word of +0.0 denotes. -/
abbrev zero32 : Ideal .f32 := Ideal.ofBits .f32 0x00000000#32

/-- One row through the perceptron: entry `j` of  relu(h · W1 + b1) · W2 + b2  for a row `h` of length `K`. -/
def mlp2Row (W1 : (⟨2, ![K, H]⟩ : Shape).Idx → EReal) (b1 : Fin H → EReal)
    (W2 : (⟨2, ![H, N]⟩ : Shape).Idx → EReal) (b2 : Fin N → EReal) (h : Fin K → EReal) (j : Fin N) : EReal :=
  (∑ e : Fin H, max ((∑ k : Fin K, h k * W1 (ix2 k e)) + b1 e) zero32 * W2 (ix2 e j)) + b2 j

/-- A vector [n] laid as a row [1, n] and broadcast down [m, n] rows, read at (p, c): entry c of the vector. -/
theorem bcastRow_apply {m n : Nat} (b : (⟨1, ![n]⟩ : Shape).Idx → EReal)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (c : Fin n) :
    broadcastInDim ⟨2, ![m, n]⟩ ![0, 1] h2 (broadcastInDim ⟨2, ![1, n]⟩ ![1] h1 b) (ix2 p c) = b (ix1 c) := by
  have hc : c.val = if n = 1 then 0 else c.val := by
    by_cases hn : n = 1
    · rw [if_pos hn]; have := c.isLt; omega
    · rw [if_neg hn]
  rw [broadcastInDim_apply ![0, 1] h2 _ (ix2 p c) (ix2 (0 : Fin 1) c) (fun a => by
    match a with
    | ⟨0, _⟩ => show (0 : Nat) = if (1 : Nat) = 1 then 0 else p.val; rw [if_pos rfl]
    | ⟨1, _⟩ => exact hc)]
  exact broadcastInDim_apply ![1] h1 b (ix2 (0 : Fin 1) c) (ix1 c) (fun a => by
    match a with
    | ⟨0, _⟩ => exact hc)

/-- A scalar broadcast over a shape reads the scalar everywhere. -/
theorem bcastScalar_apply {s : Shape} (z : (⟨0, ![]⟩ : Shape).Idx → EReal) (dims : Fin 0 → Fin s.rank)
    (h : (⟨0, ![]⟩ : Shape).BroadcastsInDim s dims) (i : s.Idx) :
    broadcastInDim s dims h z i = z ix0 :=
  broadcastInDim_apply dims h z i ix0 (fun a => a.elim0)

/-- THE KERNEL'S SPELLING at entry (p, j). -/
theorem kernel_mlp2_apply (x : FVec Ideal ⟨2, ![M, K]⟩ .f32) (W1 : FVec Ideal ⟨2, ![K, H]⟩ .f32)
    (b1 : FVec Ideal ⟨2, ![1, H]⟩ .f32) (hb1 : (⟨2, ![1, H]⟩ : Shape).Broadcasts ⟨2, ![M, H]⟩)
    (W2 : FVec Ideal ⟨2, ![H, N]⟩ .f32)
    (b2 : FVec Ideal ⟨2, ![1, N]⟩ .f32) (hb2 : (⟨2, ![1, N]⟩ : Shape).Broadcasts ⟨2, ![M, N]⟩)
    (p : Fin M) (j : Fin N) :
    addf (matmul (DotDims.plain M H N) none
          (maximumf (addf (matmul (DotDims.plain M K H) none x W1 (constant (F := Ideal) ⟨2, ![M, H]⟩ .f32 0x00000000#32))
              (broadcastTo ⟨2, ![M, H]⟩ b1 hb1))
            (broadcast ⟨2, ![M, H]⟩ (Scalar.ofBits (F := Ideal) .f32 0x00000000#32)))
          W2 (constant (F := Ideal) ⟨2, ![M, N]⟩ .f32 0x00000000#32))
        (broadcastTo ⟨2, ![M, N]⟩ b2 hb2) (ix2 p j)
      = mlp2Row W1 (fun e => b1 (ix2 (0 : Fin 1) e)) W2 (fun c => b2 (ix2 (0 : Fin 1) c)) (fun k => x (ix2 p k)) j := by
  rw [addf_apply, PlainMatmul.matmul_zero_apply, broadcastTo_1b_ab_apply]
  unfold mlp2Row
  refine congrArg (· + b2 (ix2 (0 : Fin 1) j)) (Finset.sum_congr rfl fun e _ => ?_)
  refine congrArg (· * W2 (ix2 e j)) ?_
  rw [maximumf_apply, addf_apply, PlainMatmul.matmul_zero_apply, broadcastTo_1b_ab_apply]
  rfl

/-- THE HOST'S SPELLING at entry (p, j). -/
theorem host_mlp2_apply (x : FVec Ideal ⟨2, ![M, K]⟩ .f32) (W1 : FVec Ideal ⟨2, ![K, H]⟩ .f32)
    (b1 : FVec Ideal ⟨1, ![H]⟩ .f32)
    (h11 : (⟨1, ![H]⟩ : Shape).BroadcastsInDim ⟨2, ![1, H]⟩ ![1])
    (h12 : (⟨2, ![1, H]⟩ : Shape).BroadcastsInDim ⟨2, ![M, H]⟩ ![0, 1])
    (hz : (⟨0, ![]⟩ : Shape).BroadcastsInDim ⟨2, ![M, H]⟩ ![])
    (W2 : FVec Ideal ⟨2, ![H, N]⟩ .f32)
    (b2 : FVec Ideal ⟨1, ![N]⟩ .f32)
    (h21 : (⟨1, ![N]⟩ : Shape).BroadcastsInDim ⟨2, ![1, N]⟩ ![1])
    (h22 : (⟨2, ![1, N]⟩ : Shape).BroadcastsInDim ⟨2, ![M, N]⟩ ![0, 1])
    (p : Fin M) (j : Fin N) :
    addf (Host.dotGeneral (DotDims.plain M H N) none
          (maximumf (addf (Host.dotGeneral (DotDims.plain M K H) none x W1)
              (broadcastInDim ⟨2, ![M, H]⟩ ![0, 1] h12 (broadcastInDim ⟨2, ![1, H]⟩ ![1] h11 b1)))
            (broadcastInDim ⟨2, ![M, H]⟩ ![] hz (constant (F := Ideal) ⟨0, ![]⟩ .f32 0x00000000#32)))
          W2)
        (broadcastInDim ⟨2, ![M, N]⟩ ![0, 1] h22 (broadcastInDim ⟨2, ![1, N]⟩ ![1] h21 b2)) (ix2 p j)
      = mlp2Row W1 (fun e => b1 (ix1 e)) W2 (fun c => b2 (ix1 c)) (fun k => x (ix2 p k)) j := by
  rw [addf_apply, PlainMatmul.dotGeneral_apply, bcastRow_apply]
  unfold mlp2Row
  refine congrArg (· + b2 (ix1 j)) (Finset.sum_congr rfl fun e _ => ?_)
  refine congrArg (· * W2 (ix2 e j)) ?_
  rw [maximumf_apply, addf_apply, PlainMatmul.dotGeneral_apply, bcastRow_apply, bcastScalar_apply]
  rfl

end Cert.MlpRows

end
-- ==== Proof.RowSpellHost.lean ====
/-
  The host program's spelling of the row network, read at an entry.

  Over an array of `M` rows the host program forms each dense layer as a `dot_general` plus a bias vector laid as a
  row and broadcast down the rows, the rectifier as a select on an ordered compare against a broadcast zero, a row's
  mean as a sum over the second axis (started from zero) laid as a column and divided by a broadcast 128, and the
  normalised array from these by broadcasts of the two columns. Read at entry `(p, j)` each is the row function of
  Proof/NodeRow.lean applied to ROW `p` of its operand, the same sums in the same order as the kernel's spelling.
-/
import Idealize.ShloMosaic.Lib.ValueIdx
import Idealize.ShloMosaic.Lib.ValueLayout
import Idealize.ShloMosaic.Lib.Pipeline.Value
import Idealize.ShloMosaic.PureOps.Ideal.Laws
import proofs.«134070_j29137058136337_1_alg».proof.Proof.NodeRow
import proofs.«134070_j29137058136337_1_alg».proof.Proof.LibPlainMatmul
import proofs.«134070_j29137058136337_1_alg».proof.Proof.LibRowReduce
import proofs.«134070_j29137058136337_1_alg».proof.Proof.LibMlpRows
import proofs.«134070_j29137058136337_1_alg».proof.Proof.RowSpellKernel

noncomputable section

open scoped BigOperators

namespace Cert.NodeNet

open Idealize.ShloMosaic Idealize.ShloMosaic.ValueIdx

variable {M : Nat}

/-- The shape of a scalar. -/
abbrev S0 : Shape := ⟨0, ![]⟩

/-! ## The rectifier -/

/-- The host's rectifier over a whole array: select on `a ≥ 0` between `a` and `0.2 · a`, the two constants
    broadcast from scalars. -/
def hLeaky {s : Shape} (hz : S0.BroadcastsInDim s ![]) (a : FVec Ideal s .f32) : FVec Ideal s .f32 :=
  select (cmpf .oge a (broadcastInDim s ![] hz (constant (F := Ideal) S0 .f32 0x00000000#32))) a
    (mulf (broadcastInDim s ![] hz (id (constant (F := Ideal) S0 .f32 0x3E4CCCCD#32))) a)

theorem hLeaky_apply {s : Shape} (hz : S0.BroadcastsInDim s ![]) (a : FVec Ideal s .f32) (i : s.Idx) :
    hLeaky hz a i = leaky (a i) := by
  unfold hLeaky leaky
  rw [select_apply, cmpf_apply, mulf_apply, MlpRows.bcastScalar_apply, MlpRows.bcastScalar_apply]
  rfl

/-! ## A dense layer with a bias vector -/

/-- The host's dense layer: `dot_general` plus the bias vector laid as a row and broadcast down the rows. -/
def hDense {K N : Nat} (h : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) : FVec Ideal ⟨2, ![M, N]⟩ .f32 :=
  addf (Host.dotGeneral (DotDims.plain M K N) none h W)
    (broadcastInDim ⟨2, ![M, N]⟩ ![0, 1] h2 (broadcastInDim ⟨2, ![1, N]⟩ ![1] h1 b))

theorem hDense_apply {K N : Nat} (h : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (j : Fin N) :
    hDense h W b h1 h2 (ix2 p j) = dense W (fun k => h (ix2 p k)) j + b (ix1 j) := by
  unfold hDense dense
  rw [addf_apply, PlainMatmul.dotGeneral_apply, MlpRows.bcastRow_apply]

/-! ## The three layers -/

/-- The host's three layers over an array of `M` rows. -/
def hHidden (x : FVec Ideal ⟨2, ![M, 128]⟩ .f32) (mg : FVec Ideal ⟨2, ![M, 64]⟩ .f32)
    (W1 : FVec Ideal ⟨2, ![192, 128]⟩ .f32) (b1 : FVec Ideal ⟨1, ![128]⟩ .f32)
    (W2 : FVec Ideal ⟨2, ![128, 128]⟩ .f32) (b2 : FVec Ideal ⟨1, ![128]⟩ .f32)
    (W3 : FVec Ideal ⟨2, ![128, 128]⟩ .f32)
    (hcat : Shape.Concatenates [(⟨2, ![M, 128]⟩ : Shape), ⟨2, ![M, 64]⟩] ⟨2, ![M, 192]⟩ (1 : Fin (⟨2, ![M, 192]⟩ : Shape).rank))
    (h1 : (⟨1, ![128]⟩ : Shape).BroadcastsInDim ⟨2, ![1, 128]⟩ ![1])
    (h2 : (⟨2, ![1, 128]⟩ : Shape).BroadcastsInDim ⟨2, ![M, 128]⟩ ![0, 1])
    (hz : S0.BroadcastsInDim ⟨2, ![M, 128]⟩ ![]) : FVec Ideal ⟨2, ![M, 128]⟩ .f32 :=
  Host.dotGeneral (DotDims.plain M 128 128) none
    (hLeaky hz (hDense
      (hLeaky hz (hDense
        (concatenate ⟨2, ![M, 192]⟩ (1 : Fin (⟨2, ![M, 192]⟩ : Shape).rank) [⟨⟨2, ![M, 128]⟩, x⟩, ⟨⟨2, ![M, 64]⟩, mg⟩] hcat)
        W1 b1 h1 h2))
      W2 b2 h1 h2))
    W3

/-- Entry `(p, j)` of the host's three layers is the row function of row `p` of the two operands. -/
theorem hHidden_apply (x : FVec Ideal ⟨2, ![M, 128]⟩ .f32) (mg : FVec Ideal ⟨2, ![M, 64]⟩ .f32)
    (W1 : FVec Ideal ⟨2, ![192, 128]⟩ .f32) (b1 : FVec Ideal ⟨1, ![128]⟩ .f32)
    (W2 : FVec Ideal ⟨2, ![128, 128]⟩ .f32) (b2 : FVec Ideal ⟨1, ![128]⟩ .f32)
    (W3 : FVec Ideal ⟨2, ![128, 128]⟩ .f32)
    (hcat : Shape.Concatenates [(⟨2, ![M, 128]⟩ : Shape), ⟨2, ![M, 64]⟩] ⟨2, ![M, 192]⟩ (1 : Fin (⟨2, ![M, 192]⟩ : Shape).rank))
    (h1 : (⟨1, ![128]⟩ : Shape).BroadcastsInDim ⟨2, ![1, 128]⟩ ![1])
    (h2 : (⟨2, ![1, 128]⟩ : Shape).BroadcastsInDim ⟨2, ![M, 128]⟩ ![0, 1])
    (hz : S0.BroadcastsInDim ⟨2, ![M, 128]⟩ ![]) (p : Fin M) (j : Fin 128) :
    hHidden x mg W1 b1 W2 b2 W3 hcat h1 h2 hz (ix2 p j)
      = hidden W1 (vecBias b1) W2 (vecBias b2) W3 (joined (fun a => x (ix2 p a)) (fun a => mg (ix2 p a))) j := by
  unfold hHidden hidden
  rw [PlainMatmul.dotGeneral_apply]
  show _ = ∑ e2 : Fin 128, _ * W3 (ix2 e2 j)
  refine Finset.sum_congr rfl fun e2 _ => congrArg (· * W3 (ix2 e2 j)) ?_
  rw [hLeaky_apply, hDense_apply]
  refine congrArg leaky (congrArg (· + b2 (ix1 e2)) ?_)
  show _ = ∑ e1 : Fin 128, _ * W2 (ix2 e1 e2)
  refine Finset.sum_congr rfl fun e1 _ => congrArg (· * W2 (ix2 e1 e2)) ?_
  beta_reduce
  rw [hLeaky_apply, hDense_apply]
  refine congrArg leaky (congrArg (· + b1 (ix1 e1)) ?_)
  show _ = ∑ k : Fin 192, _ * W1 (ix2 k e1)
  refine Finset.sum_congr rfl fun k _ => congrArg (· * W1 (ix2 k e1)) ?_
  beta_reduce
  exact concat_row x mg hcat p k

/-! ## Columns: a vector laid as a column, a column broadcast along the rows -/

/-- A vector of `M` entries laid as a column `[M, 1]` reads, at `(p, u)`, its entry `p`. -/
theorem bcastCol_apply (v : (⟨1, ![M]⟩ : Shape).Idx → EReal) (h : (⟨1, ![M]⟩ : Shape).BroadcastsInDim ⟨2, ![M, 1]⟩ ![0])
    (p : Fin M) (u : Fin 1) : broadcastInDim ⟨2, ![M, 1]⟩ ![0] h v (ix2 p u) = v (ix1 p) :=
  broadcastInDim_apply ![0] h v (ix2 p u) (ix1 p) (fun a => by
    match a with
    | ⟨0, _⟩ =>
      show p.val = if M = 1 then 0 else p.val
      split
      · have := p.isLt; omega
      · rfl)

/-- A column `[M, 1]` broadcast along the rows of an `[M, 128]` array reads, at `(p, c)`, its entry `(p, 0)`. -/
theorem bcastAlong_apply (v : (⟨2, ![M, 1]⟩ : Shape).Idx → EReal) (h : (⟨2, ![M, 1]⟩ : Shape).BroadcastsInDim ⟨2, ![M, 128]⟩ ![0, 1])
    (p : Fin M) (c : Fin 128) : broadcastInDim ⟨2, ![M, 128]⟩ ![0, 1] h v (ix2 p c) = v (ix2 p (0 : Fin 1)) :=
  broadcastInDim_apply ![0, 1] h v (ix2 p c) (ix2 p (0 : Fin 1)) (fun a => by
    match a with
    | ⟨0, _⟩ =>
      show p.val = if M = 1 then 0 else p.val
      split
      · have := p.isLt; omega
      · rfl
    | ⟨1, _⟩ => rfl)

/-! ## The row mean and the normalised array -/

/-- The host's sum over the second axis, started from the zero word: the sum of the row. -/
theorem hostRowSum_apply (H : FVec Ideal ⟨2, ![M, 128]⟩ .f32) (hr' : (⟨2, ![M, 128]⟩ : Shape).ReducesTo [1] ⟨1, ![M]⟩)
    (hu : 0 < S0.numel) (p : Fin M) :
    Host.reduceAdd H (constant (F := Ideal) S0 .f32 0x00000000#32) hr' hu (ix1 p) = ∑ c : Fin 128, H (ix2 p c) := by
  have hr : (⟨2, ![M, 128]⟩ : Shape).Reduces [1] ⟨1, ![M]⟩ := by
    obtain ⟨a, b⟩ := hr'
    exact ⟨a, Nat.one_pos, b⟩
  show Ideal.hostReduceAdd hr' H (Ideal.ofBits .f32 0x00000000#32) (ix1 p) = _
  rw [Ideal.hostReduceAdd_single hr' hr, Ideal.ofBits_zero_f32, zero_add]
  exact Finset.sum_congr rfl fun k _ => congrArg H (RowReduce.lift_row hr p k)

/-- The host's mean column: the row sums laid as a column, divided by a broadcast 128. -/
def hMeanCol (H : FVec Ideal ⟨2, ![M, 128]⟩ .f32) (hr' : (⟨2, ![M, 128]⟩ : Shape).ReducesTo [1] ⟨1, ![M]⟩) (hu : 0 < S0.numel)
    (hcol : (⟨1, ![M]⟩ : Shape).BroadcastsInDim ⟨2, ![M, 1]⟩ ![0]) (hz1 : S0.BroadcastsInDim ⟨2, ![M, 1]⟩ ![]) :
    FVec Ideal ⟨2, ![M, 1]⟩ .f32 :=
  Host.divf (broadcastInDim ⟨2, ![M, 1]⟩ ![0] hcol (Host.reduceAdd H (constant (F := Ideal) S0 .f32 0x00000000#32) hr' hu))
    (broadcastInDim ⟨2, ![M, 1]⟩ ![] hz1 (constant (F := Ideal) S0 .f32 0x43000000#32))

theorem hMeanCol_apply (H : FVec Ideal ⟨2, ![M, 128]⟩ .f32) (hr' : (⟨2, ![M, 128]⟩ : Shape).ReducesTo [1] ⟨1, ![M]⟩) (hu : 0 < S0.numel)
    (hcol : (⟨1, ![M]⟩ : Shape).BroadcastsInDim ⟨2, ![M, 1]⟩ ![0]) (hz1 : S0.BroadcastsInDim ⟨2, ![M, 1]⟩ ![])
    (p : Fin M) (u : Fin 1) :
    hMeanCol H hr' hu hcol hz1 (ix2 p u) = rowMean (fun c => H (ix2 p c)) := by
  unfold hMeanCol rowMean
  show Ideal.div (broadcastInDim (s := ⟨1, ![M]⟩) ⟨2, ![M, 1]⟩ ![0] hcol _ (ix2 p u)) (broadcastInDim (s := S0) ⟨2, ![M, 1]⟩ ![] hz1 _ (ix2 p u)) = _
  rw [bcastCol_apply, MlpRows.bcastScalar_apply, hostRowSum_apply]
  rfl

/-- The host's centred array: each entry less its row's mean. -/
def hCentred (H : FVec Ideal ⟨2, ![M, 128]⟩ .f32) (hr' : (⟨2, ![M, 128]⟩ : Shape).ReducesTo [1] ⟨1, ![M]⟩) (hu : 0 < S0.numel)
    (hcol : (⟨1, ![M]⟩ : Shape).BroadcastsInDim ⟨2, ![M, 1]⟩ ![0]) (hz1 : S0.BroadcastsInDim ⟨2, ![M, 1]⟩ ![])
    (hal : (⟨2, ![M, 1]⟩ : Shape).BroadcastsInDim ⟨2, ![M, 128]⟩ ![0, 1]) : FVec Ideal ⟨2, ![M, 128]⟩ .f32 :=
  subf H (broadcastInDim ⟨2, ![M, 128]⟩ ![0, 1] hal (hMeanCol H hr' hu hcol hz1))

theorem hCentred_apply (H : FVec Ideal ⟨2, ![M, 128]⟩ .f32) (hr' : (⟨2, ![M, 128]⟩ : Shape).ReducesTo [1] ⟨1, ![M]⟩) (hu : 0 < S0.numel)
    (hcol : (⟨1, ![M]⟩ : Shape).BroadcastsInDim ⟨2, ![M, 1]⟩ ![0]) (hz1 : S0.BroadcastsInDim ⟨2, ![M, 1]⟩ ![])
    (hal : (⟨2, ![M, 1]⟩ : Shape).BroadcastsInDim ⟨2, ![M, 128]⟩ ![0, 1]) (p : Fin M) (c : Fin 128) :
    hCentred H hr' hu hcol hz1 hal (ix2 p c) = H (ix2 p c) - rowMean (fun c' => H (ix2 p c')) := by
  unfold hCentred
  rw [subf_apply, bcastAlong_apply, hMeanCol_apply]

/-- The host's inverse-deviation column: the variance column plus ε, under the inverse square root. -/
def hInvStdCol (H : FVec Ideal ⟨2, ![M, 128]⟩ .f32) (hr' : (⟨2, ![M, 128]⟩ : Shape).ReducesTo [1] ⟨1, ![M]⟩) (hu : 0 < S0.numel)
    (hcol : (⟨1, ![M]⟩ : Shape).BroadcastsInDim ⟨2, ![M, 1]⟩ ![0]) (hz1 : S0.BroadcastsInDim ⟨2, ![M, 1]⟩ ![])
    (hal : (⟨2, ![M, 1]⟩ : Shape).BroadcastsInDim ⟨2, ![M, 128]⟩ ![0, 1]) : FVec Ideal ⟨2, ![M, 1]⟩ .f32 :=
  Host.rsqrt (addf
    (Host.divf
      (broadcastInDim ⟨2, ![M, 1]⟩ ![0] hcol
        (Host.reduceAdd (mulf (hCentred H hr' hu hcol hz1 hal) (hCentred H hr' hu hcol hz1 hal))
          (constant (F := Ideal) S0 .f32 0x00000000#32) hr' hu))
      (broadcastInDim ⟨2, ![M, 1]⟩ ![] hz1 (constant (F := Ideal) S0 .f32 0x43000000#32)))
    (broadcastInDim ⟨2, ![M, 1]⟩ ![] hz1 (constant (F := Ideal) S0 .f32 0x3727C5AC#32)))

theorem hInvStdCol_apply (H : FVec Ideal ⟨2, ![M, 128]⟩ .f32) (hr' : (⟨2, ![M, 128]⟩ : Shape).ReducesTo [1] ⟨1, ![M]⟩) (hu : 0 < S0.numel)
    (hcol : (⟨1, ![M]⟩ : Shape).BroadcastsInDim ⟨2, ![M, 1]⟩ ![0]) (hz1 : S0.BroadcastsInDim ⟨2, ![M, 1]⟩ ![])
    (hal : (⟨2, ![M, 1]⟩ : Shape).BroadcastsInDim ⟨2, ![M, 128]⟩ ![0, 1]) (p : Fin M) (u : Fin 1) :
    hInvStdCol H hr' hu hcol hz1 hal (ix2 p u) = Ideal.rsqrt (rowVar (fun c => H (ix2 p c)) + epsW) := by
  unfold hInvStdCol rowVar
  show Ideal.rsqrt (Ideal.div (broadcastInDim (s := ⟨1, ![M]⟩) ⟨2, ![M, 1]⟩ ![0] hcol _ (ix2 p u)) (broadcastInDim (s := S0) ⟨2, ![M, 1]⟩ ![] hz1 _ (ix2 p u))
      + broadcastInDim (s := S0) ⟨2, ![M, 1]⟩ ![] hz1 _ (ix2 p u)) = _
  rw [bcastCol_apply, MlpRows.bcastScalar_apply, MlpRows.bcastScalar_apply, hostRowSum_apply]
  refine congrArg (fun s => Ideal.rsqrt (Ideal.div s widthW + epsW)) (Finset.sum_congr rfl fun c _ => ?_)
  rw [mulf_apply, hCentred_apply]

/-- The host's normalised array. -/
def hNormed (H : FVec Ideal ⟨2, ![M, 128]⟩ .f32) (g be : FVec Ideal ⟨1, ![128]⟩ .f32)
    (hr' : (⟨2, ![M, 128]⟩ : Shape).ReducesTo [1] ⟨1, ![M]⟩) (hu : 0 < S0.numel)
    (hcol : (⟨1, ![M]⟩ : Shape).BroadcastsInDim ⟨2, ![M, 1]⟩ ![0]) (hz1 : S0.BroadcastsInDim ⟨2, ![M, 1]⟩ ![])
    (hal : (⟨2, ![M, 1]⟩ : Shape).BroadcastsInDim ⟨2, ![M, 128]⟩ ![0, 1])
    (h1 : (⟨1, ![128]⟩ : Shape).BroadcastsInDim ⟨2, ![1, 128]⟩ ![1])
    (h2 : (⟨2, ![1, 128]⟩ : Shape).BroadcastsInDim ⟨2, ![M, 128]⟩ ![0, 1]) : FVec Ideal ⟨2, ![M, 128]⟩ .f32 :=
  addf
    (mulf
      (mulf (hCentred H hr' hu hcol hz1 hal)
        (broadcastInDim ⟨2, ![M, 128]⟩ ![0, 1] hal (hInvStdCol H hr' hu hcol hz1 hal)))
      (broadcastInDim ⟨2, ![M, 128]⟩ ![0, 1] h2 (broadcastInDim ⟨2, ![1, 128]⟩ ![1] h1 g)))
    (broadcastInDim ⟨2, ![M, 128]⟩ ![0, 1] h2 (broadcastInDim ⟨2, ![1, 128]⟩ ![1] h1 be))

theorem hNormed_apply (H : FVec Ideal ⟨2, ![M, 128]⟩ .f32) (g be : FVec Ideal ⟨1, ![128]⟩ .f32)
    (hr' : (⟨2, ![M, 128]⟩ : Shape).ReducesTo [1] ⟨1, ![M]⟩) (hu : 0 < S0.numel)
    (hcol : (⟨1, ![M]⟩ : Shape).BroadcastsInDim ⟨2, ![M, 1]⟩ ![0]) (hz1 : S0.BroadcastsInDim ⟨2, ![M, 1]⟩ ![])
    (hal : (⟨2, ![M, 1]⟩ : Shape).BroadcastsInDim ⟨2, ![M, 128]⟩ ![0, 1])
    (h1 : (⟨1, ![128]⟩ : Shape).BroadcastsInDim ⟨2, ![1, 128]⟩ ![1])
    (h2 : (⟨2, ![1, 128]⟩ : Shape).BroadcastsInDim ⟨2, ![M, 128]⟩ ![0, 1]) (p : Fin M) (j : Fin 128) :
    hNormed H g be hr' hu hcol hz1 hal h1 h2 (ix2 p j) = normed (fun c => H (ix2 p c)) (vecBias g) (vecBias be) j := by
  unfold hNormed normed
  rw [addf_apply, mulf_apply, mulf_apply, hCentred_apply, bcastAlong_apply, hInvStdCol_apply,
    MlpRows.bcastRow_apply, MlpRows.bcastRow_apply]

end Cert.NodeNet

end
-- ==== Proof.RefValue.lean ====
/-
  What the reference program computes, as one function of its arguments.

  The line of 61 operations is read in five stretches — the aggregation of the messages; the first dense layer with
  its rectifier; the second; the third; the normalisation — each stretch's result one expression of the buffers it
  starts from, every other buffer it starts from kept. Composed, the result buffer holds the host's spelling of the
  network (Proof/RowSpellHost.lean) of the arguments and of the aggregated messages, and that array is, row by row,
  `nodeArray` of Proof/NodeRow.lean.
-/
import proofs.«134070_j29137058136337_1_alg».proof.Proof.RefLine
import proofs.«134070_j29137058136337_1_alg».proof.Proof.RowSpellHost
import proofs.«134070_j29137058136337_1_alg».proof.Proof.SegSum

noncomputable section

namespace Cert.ReferenceIdeal.HostLine

open Cert.ReferenceIdeal Cert.ReferenceIdeal.Gen Idealize.ShloMosaic Idealize.ShloMosaic.TcCoe Idealize.SL.Sem Idealize.ShloMosaic.StableHlo
open Idealize.ShloMosaic.ValueIdx Cert.NodeNet

/-! ## The five stretches -/

section Stretches

variable {F : FTy → Type} [FloatOps F]

/-- The aggregation of the messages. -/
abbrev opsSeg : List (HloOp τ sig (Elt F)) :=
  [ unary main_arg1 main_v0 ((extractStridedSlice S1x800000 ![1, 0] · slices_S2x800000_S1x800000_1_0) : (⟨S2x800000, .i32⟩ : BufTy).Contents (Elt F) → (⟨S1x800000, .i32⟩ : BufTy).Contents (Elt F)),
    reshape main_v0 main_v1 rfl shapeCasts_S1x800000_S800000,
    nullary main_cst (constant S_ .f32 0x00000000#32),
    unary main_cst main_v2 (broadcastInDim S50000x64 ![] bcast_S_S50000x64 : (⟨S_, .f32⟩ : BufTy).Contents (Elt F) → (⟨S50000x64, .f32⟩ : BufTy).Contents (Elt F)),
    unary main_v1 main_v3 (broadcastInDim S800000x1 ![0] bcast_S800000_S800000x1_0 : (⟨S800000, .i32⟩ : BufTy).Contents (Elt F) → (⟨S800000x1, .i32⟩ : BufTy).Contents (Elt F)),
    ternary main_v2 main_v3 main_arg2 main_v4 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- The joined rows, the first dense layer, its rectifier. -/
abbrev opsL1 : List (HloOp τ sig (Elt F)) :=
  [ binary main_arg0 main_v4 main_v5 ((fun a b => concatenate S50000x192 1 [⟨S50000x128, a⟩, ⟨S50000x64, b⟩] concatenates_S50000x128_S50000x64_S50000x192_d1) : (⟨S50000x128, .f32⟩ : BufTy).Contents (Elt F) → (⟨S50000x64, .f32⟩ : BufTy).Contents (Elt F) → (⟨S50000x192, .f32⟩ : BufTy).Contents (Elt F)),
    binary main_v5 main_arg3 main_v6 ((fun l r => Host.dotGeneral dot_S50000x192_S192x128_S50000x128_1_0_0_1_n_n none l r) : (⟨S50000x192, .f32⟩ : BufTy).Contents (Elt F) → (⟨S192x128, .f32⟩ : BufTy).Contents (Elt F) → (⟨S50000x128, .f32⟩ : BufTy).Contents (Elt F)),
    unary main_arg4 main_v7 (broadcastInDim S1x128 ![1] bcast_S128_S1x128_1 : (⟨S128, .f32⟩ : BufTy).Contents (Elt F) → (⟨S1x128, .f32⟩ : BufTy).Contents (Elt F)),
    unary main_v7 main_v8 (broadcastInDim S50000x128 ![0, 1] bcast_S1x128_S50000x128_0_1 : (⟨S1x128, .f32⟩ : BufTy).Contents (Elt F) → (⟨S50000x128, .f32⟩ : BufTy).Contents (Elt F)),
    binary main_v6 main_v8 main_v9 (addf : (⟨S50000x128, .f32⟩ : BufTy).Contents (Elt F) → (⟨S50000x128, .f32⟩ : BufTy).Contents (Elt F) → (⟨S50000x128, .f32⟩ : BufTy).Contents (Elt F)),
    nullary main_cst_0 (constant S_ .f32 0x3E4CCCCD#32),
    TRef.nullary main_call0.cst (constant S_ .f32 0x00000000#32),
    TRef.unary main_call0.cst main_call0.v0 (broadcastInDim S50000x128 ![] bcast_S_S50000x128),
    TRef.binary (.of main_v9) main_call0.v0 main_call0.v1 (cmpf .oge),
    TRef.unary (.of main_cst_0) main_call0.v2 id,
    TRef.unary main_call0.v2 main_call0.v3 (broadcastInDim S50000x128 ![] bcast_S_S50000x128),
    TRef.binary main_call0.v3 (.of main_v9) main_call0.v4 mulf,
    TRef.ternary main_call0.v1 (.of main_v9) main_call0.v4 main_call0.call0.v0 select ]

/-- The second dense layer, its rectifier. -/
abbrev opsL2 : List (HloOp τ sig (Elt F)) :=
  [ binary main_v10 main_arg5 main_v11 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v12 (broadcastInDim S1x128 ![1] bcast_S128_S1x128_1 : (⟨S128, .f32⟩ : BufTy).Contents (Elt F) → (⟨S1x128, .f32⟩ : BufTy).Contents (Elt F)),
    unary main_v12 main_v13 (broadcastInDim S50000x128 ![0, 1] bcast_S1x128_S50000x128_0_1 : (⟨S1x128, .f32⟩ : BufTy).Contents (Elt F) → (⟨S50000x128, .f32⟩ : BufTy).Contents (Elt F)),
    binary main_v11 main_v13 main_v14 (addf : (⟨S50000x128, .f32⟩ : BufTy).Contents (Elt F) → (⟨S50000x128, .f32⟩ : BufTy).Contents (Elt F) → (⟨S50000x128, .f32⟩ : BufTy).Contents (Elt F)),
    nullary main_cst_1 (constant S_ .f32 0x3E4CCCCD#32),
    TRef.nullary main_call1.cst (constant S_ .f32 0x00000000#32),
    TRef.unary main_call1.cst main_call1.v0 (broadcastInDim S50000x128 ![] bcast_S_S50000x128),
    TRef.binary (.of main_v14) main_call1.v0 main_call1.v1 (cmpf .oge),
    TRef.unary (.of main_cst_1) main_call1.v2 id,
    TRef.unary main_call1.v2 main_call1.v3 (broadcastInDim S50000x128 ![] bcast_S_S50000x128),
    TRef.binary main_call1.v3 (.of main_v14) main_call1.v4 mulf,
    TRef.ternary main_call1.v1 (.of main_v14) main_call1.v4 main_call1.call0.v0 select ]

/-- The third dense layer. -/
abbrev opsL3 : List (HloOp τ sig (Elt F)) :=
  [ binary main_v15 main_arg7 main_v16 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The normalisation of every row. -/
abbrev opsNorm : List (HloOp τ sig (Elt F)) :=
  [ nullary main_cst_2 (constant S_ .f32 0x00000000#32),
    binary main_v16 main_cst_2 main_v17 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v17 main_v18 (broadcastInDim S50000x1 ![0] bcast_S50000_S50000x1_0 : (⟨S50000, .f32⟩ : BufTy).Contents (Elt F) → (⟨S50000x1, .f32⟩ : BufTy).Contents (Elt F)),
    nullary main_cst_3 (constant S_ .f32 0x43000000#32),
    unary main_cst_3 main_v19 (broadcastInDim S50000x1 ![] bcast_S_S50000x1 : (⟨S_, .f32⟩ : BufTy).Contents (Elt F) → (⟨S50000x1, .f32⟩ : BufTy).Contents (Elt F)),
    binary main_v18 main_v19 main_v20 (Host.divf : (⟨S50000x1, .f32⟩ : BufTy).Contents (Elt F) → (⟨S50000x1, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v16 main_v21 main_v22 (subf : (⟨S50000x128, .f32⟩ : BufTy).Contents (Elt F) → (⟨S50000x128, .f32⟩ : BufTy).Contents (Elt F) → (⟨S50000x128, .f32⟩ : BufTy).Contents (Elt F)),
    binary main_v22 main_v22 main_v23 (mulf : (⟨S50000x128, .f32⟩ : BufTy).Contents (Elt F) → (⟨S50000x128, .f32⟩ : BufTy).Contents (Elt F) → (⟨S50000x128, .f32⟩ : BufTy).Contents (Elt F)),
    nullary main_cst_4 (constant S_ .f32 0x00000000#32),
    binary main_v23 main_cst_4 main_v24 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v24 main_v25 (broadcastInDim S50000x1 ![0] bcast_S50000_S50000x1_0 : (⟨S50000, .f32⟩ : BufTy).Contents (Elt F) → (⟨S50000x1, .f32⟩ : BufTy).Contents (Elt F)),
    nullary main_cst_5 (constant S_ .f32 0x43000000#32),
    unary main_cst_5 main_v26 (broadcastInDim S50000x1 ![] bcast_S_S50000x1 : (⟨S_, .f32⟩ : BufTy).Contents (Elt F) → (⟨S50000x1, .f32⟩ : BufTy).Contents (Elt F)),
    binary main_v25 main_v26 main_v27 (Host.divf : (⟨S50000x1, .f32⟩ : BufTy).Contents (Elt F) → (⟨S50000x1, .f32⟩ : BufTy).Contents (Elt F) → (⟨S50000x1, .f32⟩ : BufTy).Contents (Elt F)),
    unary main_v20 main_v28 (broadcastInDim S50000x128 ![0, 1] bcast_S50000x1_S50000x128_0_1 : (⟨S50000x1, .f32⟩ : BufTy).Contents (Elt F) → (⟨S50000x128, .f32⟩ : BufTy).Contents (Elt F)),
    binary main_v16 main_v28 main_v29 (subf : (⟨S50000x128, .f32⟩ : BufTy).Contents (Elt F) → (⟨S50000x128, .f32⟩ : BufTy).Contents (Elt F) → (⟨S50000x128, .f32⟩ : BufTy).Contents (Elt F)),
    nullary main_cst_6 (constant S_ .f32 0x3727C5AC#32),
    unary main_cst_6 main_v30 (broadcastInDim S50000x1 ![] bcast_S_S50000x1 : (⟨S_, .f32⟩ : BufTy).Contents (Elt F) → (⟨S50000x1, .f32⟩ : BufTy).Contents (Elt F)),
    binary main_v27 main_v30 main_v31 (addf : (⟨S50000x1, .f32⟩ : BufTy).Contents (Elt F) → (⟨S50000x1, .f32⟩ : BufTy).Contents (Elt F) → (⟨S50000x1, .f32⟩ : BufTy).Contents (Elt F)),
    unary main_v31 main_v32 (Host.rsqrt : (⟨S50000x1, .f32⟩ : BufTy).Contents (Elt F) → (⟨S50000x1, .f32⟩ : BufTy).Contents (Elt F)),
    unary main_v32 main_v33 (broadcastInDim S50000x128 ![0, 1] bcast_S50000x1_S50000x128_0_1 : (⟨S50000x1, .f32⟩ : BufTy).Contents (Elt F) → (⟨S50000x128, .f32⟩ : BufTy).Contents (Elt F)),
    binary main_v29 main_v33 main_v34 (mulf : (⟨S50000x128, .f32⟩ : BufTy).Contents (Elt F) → (⟨S50000x128, .f32⟩ : BufTy).Contents (Elt F) → (⟨S50000x128, .f32⟩ : BufTy).Contents (Elt F)),
    unary main_arg8 main_v35 (broadcastInDim S1x128 ![1] bcast_S128_S1x128_1 : (⟨S128, .f32⟩ : BufTy).Contents (Elt F) → (⟨S1x128, .f32⟩ : BufTy).Contents (Elt F)),
    unary main_v35 main_v36 (broadcastInDim S50000x128 ![0, 1] bcast_S1x128_S50000x128_0_1 : (⟨S1x128, .f32⟩ : BufTy).Contents (Elt F) → (⟨S50000x128, .f32⟩ : BufTy).Contents (Elt F)),
    binary main_v34 main_v36 main_v37 (mulf : (⟨S50000x128, .f32⟩ : BufTy).Contents (Elt F) → (⟨S50000x128, .f32⟩ : BufTy).Contents (Elt F) → (⟨S50000x128, .f32⟩ : BufTy).Contents (Elt F)),
    unary main_arg9 main_v38 (broadcastInDim S1x128 ![1] bcast_S128_S1x128_1 : (⟨S128, .f32⟩ : BufTy).Contents (Elt F) → (⟨S1x128, .f32⟩ : BufTy).Contents (Elt F)),
    unary main_v38 main_v39 (broadcastInDim S50000x128 ![0, 1] bcast_S1x128_S50000x128_0_1 : (⟨S1x128, .f32⟩ : BufTy).Contents (Elt F) → (⟨S50000x128, .f32⟩ : BufTy).Contents (Elt F)),
    binary main_v37 main_v39 main_v40 (addf : (⟨S50000x128, .f32⟩ : BufTy).Contents (Elt F) → (⟨S50000x128, .f32⟩ : BufTy).Contents (Elt F) → (⟨S50000x128, .f32⟩ : BufTy).Contents (Elt F)) ]

theorem ops_split : (ops : List (HloOp τ sig (Elt F))) = opsSeg ++ (opsL1 ++ (opsL2 ++ (opsL3 ++ opsNorm))) := rfl

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

end Stretches

/-! ## Each stretch, read -/

theorem outSeg (W : Valuation τ sig (Elt Ideal)) :
    after opsSeg W (main_v4 : DevRef τ sig) = segSum scatter_S50000x64_S800000x1_S800000x64_1_0_0_1 slices_S2x800000_S1x800000_1_0 shapeCasts_S1x800000_S800000 bcast_S_S50000x64 bcast_S800000_S800000x1_0 (W (main_arg1 : DevRef τ sig)) (W (main_arg2 : DevRef τ sig)) := by
  after_results_simp
  rfl
theorem keepSeg_arg0 (W : Valuation τ sig (Elt Ideal)) : after opsSeg W (main_arg0 : DevRef τ sig) = W (main_arg0 : DevRef τ sig) := by after_results_simp
theorem keepSeg_arg3 (W : Valuation τ sig (Elt Ideal)) : after opsSeg W (main_arg3 : DevRef τ sig) = W (main_arg3 : DevRef τ sig) := by after_results_simp
theorem keepSeg_arg4 (W : Valuation τ sig (Elt Ideal)) : after opsSeg W (main_arg4 : DevRef τ sig) = W (main_arg4 : DevRef τ sig) := by after_results_simp
theorem keepSeg_arg5 (W : Valuation τ sig (Elt Ideal)) : after opsSeg W (main_arg5 : DevRef τ sig) = W (main_arg5 : DevRef τ sig) := by after_results_simp
theorem keepSeg_arg6 (W : Valuation τ sig (Elt Ideal)) : after opsSeg W (main_arg6 : DevRef τ sig) = W (main_arg6 : DevRef τ sig) := by after_results_simp
theorem keepSeg_arg7 (W : Valuation τ sig (Elt Ideal)) : after opsSeg W (main_arg7 : DevRef τ sig) = W (main_arg7 : DevRef τ sig) := by after_results_simp
theorem keepSeg_arg8 (W : Valuation τ sig (Elt Ideal)) : after opsSeg W (main_arg8 : DevRef τ sig) = W (main_arg8 : DevRef τ sig) := by after_results_simp
theorem keepSeg_arg9 (W : Valuation τ sig (Elt Ideal)) : after opsSeg W (main_arg9 : DevRef τ sig) = W (main_arg9 : DevRef τ sig) := by after_results_simp

theorem outL1 (W : Valuation τ sig (Elt Ideal)) :
    after opsL1 W (main_v10 : DevRef τ sig)
      = hLeaky bcast_S_S50000x128 (hDense (M := 50000)
          (concatenate S50000x192 1 [⟨S50000x128, W (main_arg0 : DevRef τ sig)⟩, ⟨S50000x64, W (main_v4 : DevRef τ sig)⟩] concatenates_S50000x128_S50000x64_S50000x192_d1)
          (W (main_arg3 : DevRef τ sig)) (W (main_arg4 : DevRef τ sig)) bcast_S128_S1x128_1 bcast_S1x128_S50000x128_0_1) := by
  after_results_simp
  rfl
theorem keepL1_arg5 (W : Valuation τ sig (Elt Ideal)) : after opsL1 W (main_arg5 : DevRef τ sig) = W (main_arg5 : DevRef τ sig) := by after_results_simp
theorem keepL1_arg6 (W : Valuation τ sig (Elt Ideal)) : after opsL1 W (main_arg6 : DevRef τ sig) = W (main_arg6 : DevRef τ sig) := by after_results_simp
theorem keepL1_arg7 (W : Valuation τ sig (Elt Ideal)) : after opsL1 W (main_arg7 : DevRef τ sig) = W (main_arg7 : DevRef τ sig) := by after_results_simp
theorem keepL1_arg8 (W : Valuation τ sig (Elt Ideal)) : after opsL1 W (main_arg8 : DevRef τ sig) = W (main_arg8 : DevRef τ sig) := by after_results_simp
theorem keepL1_arg9 (W : Valuation τ sig (Elt Ideal)) : after opsL1 W (main_arg9 : DevRef τ sig) = W (main_arg9 : DevRef τ sig) := by after_results_simp

theorem outL2 (W : Valuation τ sig (Elt Ideal)) :
    after opsL2 W (main_v15 : DevRef τ sig)
      = hLeaky bcast_S_S50000x128 (hDense (M := 50000) (W (main_v10 : DevRef τ sig)) (W (main_arg5 : DevRef τ sig)) (W (main_arg6 : DevRef τ sig)) bcast_S128_S1x128_1 bcast_S1x128_S50000x128_0_1) := by
  after_results_simp
  rfl
theorem keepL2_arg7 (W : Valuation τ sig (Elt Ideal)) : after opsL2 W (main_arg7 : DevRef τ sig) = W (main_arg7 : DevRef τ sig) := by after_results_simp
theorem keepL2_arg8 (W : Valuation τ sig (Elt Ideal)) : after opsL2 W (main_arg8 : DevRef τ sig) = W (main_arg8 : DevRef τ sig) := by after_results_simp
theorem keepL2_arg9 (W : Valuation τ sig (Elt Ideal)) : after opsL2 W (main_arg9 : DevRef τ sig) = W (main_arg9 : DevRef τ sig) := by after_results_simp

theorem outL3 (W : Valuation τ sig (Elt Ideal)) :
    after opsL3 W (main_v16 : DevRef τ sig) = Host.dotGeneral (F := Ideal) (φ₁ := .f32) (φ₂ := .f32) (DotDims.plain 50000 128 128) none
        (W (main_v15 : DevRef τ sig) : FVec Ideal S50000x128 .f32) (W (main_arg7 : DevRef τ sig) : FVec Ideal S128x128 .f32) := by
  after_results_simp
  rfl
theorem keepL3_arg8 (W : Valuation τ sig (Elt Ideal)) : after opsL3 W (main_arg8 : DevRef τ sig) = W (main_arg8 : DevRef τ sig) := by after_results_simp
theorem keepL3_arg9 (W : Valuation τ sig (Elt Ideal)) : after opsL3 W (main_arg9 : DevRef τ sig) = W (main_arg9 : DevRef τ sig) := by after_results_simp

theorem outNorm (W : Valuation τ sig (Elt Ideal)) :
    after opsNorm W (main_v40 : DevRef τ sig) = hNormed (M := 50000) (W (main_v16 : DevRef τ sig)) (W (main_arg8 : DevRef τ sig)) (W (main_arg9 : DevRef τ sig)) reducesTo_S50000x128_S50000_d1 h_S_ bcast_S50000_S50000x1_0 bcast_S_S50000x1 bcast_S50000x1_S50000x128_0_1 bcast_S128_S1x128_1 bcast_S1x128_S50000x128_0_1 := by
  after_results_simp
  rfl

/-! ## The line, read -/

/-- The host's spelling of the whole network over the arguments. -/
def lineOut (x : FVec Ideal S50000x128 .f32) (ei : IVec S2x800000 32) (msg : FVec Ideal S800000x64 .f32)
    (W1 : FVec Ideal S192x128 .f32) (b1 : FVec Ideal S128 .f32) (W2 : FVec Ideal S128x128 .f32) (b2 : FVec Ideal S128 .f32)
    (W3 : FVec Ideal S128x128 .f32) (g be : FVec Ideal S128 .f32) : FVec Ideal S50000x128 .f32 :=
  hNormed (M := 50000)
    (hHidden (M := 50000) x (segSum scatter_S50000x64_S800000x1_S800000x64_1_0_0_1 slices_S2x800000_S1x800000_1_0 shapeCasts_S1x800000_S800000 bcast_S_S50000x64 bcast_S800000_S800000x1_0 ei msg) W1 b1 W2 b2 W3
      concatenates_S50000x128_S50000x64_S50000x192_d1 bcast_S128_S1x128_1 bcast_S1x128_S50000x128_0_1 bcast_S_S50000x128)
    g be reducesTo_S50000x128_S50000_d1 h_S_ bcast_S50000_S50000x1_0 bcast_S_S50000x1 bcast_S50000x1_S50000x128_0_1 bcast_S128_S1x128_1 bcast_S1x128_S50000x128_0_1

/-- After the line the result buffer holds `lineOut` of the arguments. -/
theorem out_eq (V : Valuation τ sig (Elt Ideal)) :
    after ops V (main_v40 : DevRef τ sig)
      = lineOut (V (main_arg0 : DevRef τ sig)) (V (main_arg1 : DevRef τ sig)) (V (main_arg2 : DevRef τ sig)) (V (main_arg3 : DevRef τ sig)) (V (main_arg4 : DevRef τ sig)) (V (main_arg5 : DevRef τ sig))
          (V (main_arg6 : DevRef τ sig)) (V (main_arg7 : DevRef τ sig)) (V (main_arg8 : DevRef τ sig)) (V (main_arg9 : DevRef τ sig)) := by
  rw [ops_split, after_append, after_append, after_append, after_append]
  rw [outNorm, outL3, keepL3_arg8, keepL3_arg9]
  rw [outL2, keepL2_arg7, keepL2_arg8, keepL2_arg9]
  rw [outL1, keepL1_arg5, keepL1_arg6, keepL1_arg7, keepL1_arg8, keepL1_arg9]
  rw [outSeg, keepSeg_arg0, keepSeg_arg3, keepSeg_arg4, keepSeg_arg5, keepSeg_arg6, keepSeg_arg7, keepSeg_arg8, keepSeg_arg9]
  rfl

theorem kept_arg0 (V : Valuation τ sig (Elt Ideal)) : after ops V (main_arg0 : DevRef τ sig) = V (main_arg0 : DevRef τ sig) := by after_results_simp
theorem kept_arg1 (V : Valuation τ sig (Elt Ideal)) : after ops V (main_arg1 : DevRef τ sig) = V (main_arg1 : DevRef τ sig) := by after_results_simp
theorem kept_arg2 (V : Valuation τ sig (Elt Ideal)) : after ops V (main_arg2 : DevRef τ sig) = V (main_arg2 : DevRef τ sig) := by after_results_simp
theorem kept_arg3 (V : Valuation τ sig (Elt Ideal)) : after ops V (main_arg3 : DevRef τ sig) = V (main_arg3 : DevRef τ sig) := by after_results_simp
theorem kept_arg4 (V : Valuation τ sig (Elt Ideal)) : after ops V (main_arg4 : DevRef τ sig) = V (main_arg4 : DevRef τ sig) := by after_results_simp
theorem kept_arg5 (V : Valuation τ sig (Elt Ideal)) : after ops V (main_arg5 : DevRef τ sig) = V (main_arg5 : DevRef τ sig) := by after_results_simp
theorem kept_arg6 (V : Valuation τ sig (Elt Ideal)) : after ops V (main_arg6 : DevRef τ sig) = V (main_arg6 : DevRef τ sig) := by after_results_simp
theorem kept_arg7 (V : Valuation τ sig (Elt Ideal)) : after ops V (main_arg7 : DevRef τ sig) = V (main_arg7 : DevRef τ sig) := by after_results_simp
theorem kept_arg8 (V : Valuation τ sig (Elt Ideal)) : after ops V (main_arg8 : DevRef τ sig) = V (main_arg8 : DevRef τ sig) := by after_results_simp
theorem kept_arg9 (V : Valuation τ sig (Elt Ideal)) : after ops V (main_arg9 : DevRef τ sig) = V (main_arg9 : DevRef τ sig) := by after_results_simp

/-! ## The line's result is the network, row by row -/

theorem lineOut_eq (x : FVec Ideal S50000x128 .f32) (ei : IVec S2x800000 32) (msg : FVec Ideal S800000x64 .f32)
    (W1 : FVec Ideal S192x128 .f32) (b1 : FVec Ideal S128 .f32) (W2 : FVec Ideal S128x128 .f32) (b2 : FVec Ideal S128 .f32)
    (W3 : FVec Ideal S128x128 .f32) (g be : FVec Ideal S128 .f32) :
    lineOut x ei msg W1 b1 W2 b2 W3 g be
      = nodeArray x (segSum scatter_S50000x64_S800000x1_S800000x64_1_0_0_1 slices_S2x800000_S1x800000_1_0 shapeCasts_S1x800000_S800000 bcast_S_S50000x64 bcast_S800000_S800000x1_0 ei msg) W1 (vecBias b1) W2 (vecBias b2) W3 (vecBias g) (vecBias be) := by
  funext i
  obtain ⟨r, j, rfl⟩ : ∃ (r : Fin 50000) (j : Fin 128), i = ix2 r j := ⟨i 0, i 1, eq_ix2 i⟩
  rw [nodeArray_apply]
  unfold lineOut nodeRow
  rw [hNormed_apply]
  exact congrArg (fun h => normed h (vecBias g) (vecBias be) j) (funext fun c => hHidden_apply (M := 50000) x _ W1 b1 W2 b2 W3 _ _ _ _ r c)

/-! ## The run -/

/-- Every weakly fair execution of the reference program terminates with the result buffer at `nodeArray` of the
    arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40) = nodeArray (m ((c.tc : Thread nD τ).loc main_arg0)) (segSum scatter_S50000x64_S800000x1_S800000x64_1_0_0_1 slices_S2x800000_S1x800000_1_0 shapeCasts_S1x800000_S800000 bcast_S_S50000x64 bcast_S800000_S800000x1_0 (m ((c.tc : Thread nD τ).loc main_arg1)) (m ((c.tc : Thread nD τ).loc main_arg2))) (m ((c.tc : Thread nD τ).loc main_arg3)) (vecBias (m ((c.tc : Thread nD τ).loc main_arg4))) (m ((c.tc : Thread nD τ).loc main_arg5)) (vecBias (m ((c.tc : Thread nD τ).loc main_arg6))) (m ((c.tc : Thread nD τ).loc main_arg7)) (vecBias (m ((c.tc : Thread nD τ).loc main_arg8))) (vecBias (m ((c.tc : Thread nD τ).loc main_arg9)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v40).trans ((out_eq _).trans (lineOut_eq _ _ _ _ _ _ _ _ _ _)),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _)⟩)
    (run_line m ρ)

end Cert.ReferenceIdeal.HostLine

end
-- ==== Proof.lean ====
/-
  The kernel against its reference: a message-passing node update.

  Both programs first sum the 800000 edge messages into their 50000 destination nodes (the same six host operations
  on the same two arguments), then give every node the output

      LayerNorm( W3ᵀ · leaky( W2ᵀ · leaky( W1ᵀ · [x ; aggregated] + b1 ) + b2 ) ) · γ + β,

  a function of the node's own feature row and its own row of aggregated messages only (Proof/NodeRow.lean). The
  reference computes all 50000 rows at once with `dot_general`s and host reductions; the kernel computes them 2000
  rows at a time over a grid of 25 points, with matrix-unit products into zero accumulators and lane reductions.
  Over the extended reals every operation on one side is the same exact operation on the other — the same sums in
  the same order, the same four float words (0.2, 128, ε, +0.0) — so the two output arrays are equal entry by entry,
  and no input needs to be finite for that: nothing is re-associated, distributed or cancelled.

  The kernel's side: what a grid point stores is, entry by entry, the row function of the rows it loaded
  (Proof/KernelRow.lean over the spelling read in Proof/RowSpellKernel.lean); the 25 stored blocks are the blocks of
  one whole array and tile it (Proof/KernelArray.lean). The reference's side: its line of 61 host operations run and
  read back (Proof/RefLine.lean, Proof/RefValue.lean over the spelling read in Proof/RowSpellHost.lean). The
  aggregated messages enter both as the one function of Proof/SegSum.lean. The idealized kernel is the kernel's own
  text read at the extended reals (no rewrite was applied), so there is nothing to preserve.
-/
import proofs.«134070_j29137058136337_1_alg».proof.Defs
import proofs.«134070_j29137058136337_1_alg».proof.Proof.Gen.Kernel
import proofs.«134070_j29137058136337_1_alg».proof.Proof.Gen.Kernel.Skeleton
import proofs.«134070_j29137058136337_1_alg».proof.Proof.Gen.Kernel.Launch
import proofs.«134070_j29137058136337_1_alg».proof.Proof.Gen.Kernel.Points
import proofs.«134070_j29137058136337_1_alg».proof.Proof.Gen.Kernel.Frame
import proofs.«134070_j29137058136337_1_alg».proof.Proof.Gen.KernelIdeal
import proofs.«134070_j29137058136337_1_alg».proof.Proof.Gen.KernelIdeal.Skeleton
import proofs.«134070_j29137058136337_1_alg».proof.Proof.Gen.KernelIdeal.Launch
import proofs.«134070_j29137058136337_1_alg».proof.Proof.Gen.KernelIdeal.Points
import proofs.«134070_j29137058136337_1_alg».proof.Proof.Gen.KernelIdeal.Frame
import proofs.«134070_j29137058136337_1_alg».proof.Proof.Gen.KernelIdeal.Value
import proofs.«134070_j29137058136337_1_alg».proof.Proof.Gen.ReferenceIdeal
import proofs.«134070_j29137058136337_1_alg».proof.Proof.Gen.Pre_finite_inputs
import proofs.«134070_j29137058136337_1_alg».proof.Proof.KernelArray
import proofs.«134070_j29137058136337_1_alg».proof.Proof.RefValue
import Idealize.ShloMosaic.Adequacy
import Idealize.ShloMosaic.Init

noncomputable section

namespace Cert.Proof

open Idealize.ShloMosaic Idealize.SL.Sem

/-- The kernel's program as printed runs, faults nowhere, and leaves its arguments as they were. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference's line of host operations runs and leaves its arguments as they were: its run with the result
    dropped. -/
theorem frame_referenceIdeal : Cert.frame_ReferenceIdeal := fun m ρ _ =>
  (θ_run Cert.ReferenceIdeal.defs _ _).mono (fun _ h c => (h c).2) (Cert.ReferenceIdeal.HostLine.run m ρ)

/-- No operation of the kernel was rewritten for the reading at the extended reals. -/
theorem preserves : Cert.preserves_Kernel_KernelIdeal := trivial

/-- From memories agreeing on the ten arguments both programs end with the same array: each ends at `nodeArray` of
    its arguments, and the aggregated messages are the same function of the same two arguments on both sides (the
    two programs' side conditions for its five shape operations are proofs of the same propositions). -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.HostLine.run m' ρ')
  obtain ⟨a0, a1, a2, a3, a4, a5, a6, a7, a8, a9⟩ := hagree c
  rw [a0, a1, a2, a3, a4, a5, a6, a7, a8, a9]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
